-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S2x8192 : Shape := ⟨2, ![2, 8192]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel
  bcast_S_S2x8192 : S_.BroadcastsInDim S2x8192 (![] : Fin 0 → Fin S2x8192.rank)
  reducesTo_S2x8192_S_d0_1 : S2x8192.ReducesTo [0, 1] S_

variable [Facts]

def fn {F : FTy → Type} [FloatOps F] (main_arg0 : FVec F S2x8192x3 .f32) (main_arg1 : FVec F S2x8192x3 .f32) (main_arg2 : FVec F S2x8192 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  let main_v9 : FVec F S2x8192 .f32 := Host.absf main_arg2
  let main_cst_2 : FVec F S_ .f32 := constant S_ .f32 0x7F800000#32
  let main_v10 : FVec F S2x8192 .f32 := broadcastInDim S2x8192 ![] bcast_S_S2x8192 main_cst_2
  let main_v11 : IVec S2x8192 1 := cmpf .olt main_v9 main_v10
  let main_c_3 : IVec S_ 1 := constantI S_ 1 1#1
  let main_v12 : IVec S_ 1 := (fun x v => Host.reduce IntOp.andi x v reducesTo_S2x8192_S_d0_1 h_S_) main_v11 main_c_3
  let main_v13 : IVec S_ 1 := andi main_v8 main_v12
  main_v13
-- ==== Kernel.lean ====
abbrev S2x8192x3 : Shape := ⟨3, ![2, 8192, 3]⟩
abbrev S2x8192 : Shape := ⟨2, ![2, 8192]⟩
abbrev S2x3x8192 : Shape := ⟨3, ![2, 3, 8192]⟩
abbrev S2x1x8192 : Shape := ⟨3, ![2, 1, 8192]⟩
abbrev S1x2048x3 : Shape := ⟨3, ![1, 2048, 3]⟩
abbrev S1x3x1024 : Shape := ⟨3, ![1, 3, 1024]⟩
abbrev S1x1x2048 : Shape := ⟨3, ![1, 1, 2048]⟩
abbrev S1x1x8192 : Shape := ⟨3, ![1, 1, 8192]⟩
abbrev S2048x3 : Shape := ⟨2, ![2048, 3]⟩
abbrev S3x1024 : Shape := ⟨2, ![3, 1024]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩
abbrev S1x2048 : Shape := ⟨2, ![1, 2048]⟩
abbrev S1024 : Shape := ⟨1, ![1024]⟩
abbrev S1x1x1024 : Shape := ⟨3, ![1, 1, 1024]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S2x3x8192, .f32⟩
  | .hbm, ⟨4, _⟩ => ⟨S2x1x8192, .f32⟩
  | .hbm, ⟨5, _⟩ => ⟨S2x1x8192, .f32⟩
  | .hbm, ⟨6, _⟩ => ⟨S2x8192, .f32⟩
  | .hbm, ⟨7, _⟩ => ⟨S2x8192, .f32⟩
  | .hbm, ⟨8, _⟩ => ⟨S2x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x2048, .f32⟩
  | .local _ .vmem, ⟨5, _⟩ => ⟨S1x1x2048, .f32⟩
  | .local _ .vmem, ⟨6, _⟩ => ⟨S1x1x8192, .f32⟩
  | .local _ .vmem, ⟨7, _⟩ => ⟨S1x1x8192, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c1024_i32 : BitVec 32 := 1024#32
  let v42 : BitVec 32 := Scalar.muli arg2 c1024_i32
  v42
def k0_off1 (i : grid0.Coords) : Fin 3 → Nat :=
  let c0_16 : Index := 0#32
  let c0_17 : Index := 0#32
  let arg2 : BitVec 32 := BitVec.ofNat 32 (i 2).val
  let c1024_i32 : BitVec 32 := 1024#32
  let v42 : BitVec 32 := Scalar.muli arg2 c1024_i32
  let v43 : BitVec 32 := v42
  let v44 : Index := Scalar.indexCast v43
  ![0, 0, v44.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S2x8192x3_S2x3x8192_0_2_1 : S2x8192x3.Transposes [0, 2, 1] S2x3x8192
  inb_S1x1x8192_S1x1x8192_0_0_0 : ∀ a, (![0, 0, 0] : Fin 3 → Nat) a + S1x1x8192.size a ≤ S1x1x8192.size a
  h_S1x1x8192 : 0 < S1x1x8192.numel
  inb_S1x1x2048_S1x1x2048_0_0_0 : ∀ a, (![0, 0, 0] : Fin 3 → Nat) a + S1x1x2048.size a ≤ S1x1x2048.size a
  h_S1x1x2048 : 0 < S1x1x2048.numel
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  slices_S3x1024_o0_0_S1x1024 : S3x1024.Slices ![0, 0] S1x1024
  slices_S3x1024_o1_0_S1x1024 : S3x1024.Slices ![1, 0] S1x1024
  slices_S3x1024_o2_0_S1x1024 : S3x1024.Slices ![2, 0] S1x1024
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S2048x1 : S2048.ShapeCasts S2048x1
  transposes_S2048x1_p1_0_S1x2048 : S2048x1.Transposes [1, 0] S1x2048
  shapeCasts_S1x2048_S1x1x2048 : S1x2048.ShapeCasts S1x1x2048
  shapeCasts_S1x1x2048_S1x1x2048 : S1x1x2048.ShapeCasts S1x1x2048
  reduces_S2048x1024_S1024 : S2048x1024.Reduces [0] S1024
  shapeCasts_S1024_S1x1024 : S1024.ShapeCasts S1x1024
  h_S1x1x1024 : 0 < S1x1x1024.numel
  shapeCasts_S1x1x1024_S1024 : S1x1x1024.ShapeCasts S1024
  shapeCasts_S1x1024_S1024 : S1x1024.ShapeCasts S1024
  shapeCasts_S1024_S1x1x1024 : S1024.ShapeCasts S1x1x1024
  shapeCasts_S2x1x8192_S2x8192 : S2x1x8192.ShapeCasts S2x8192
  reducesTo_S2x8192_S_d0_1 : S2x8192.ReducesTo [0, 1] S_
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S2x8192x3.size a
  hwx0_0 : ∀ i : grid0.Coords, EltTy.bits .f32 = 32 ∨ (Rect.block (s := S2x8192x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S2x3x8192.size a
  hwx0_1 : ∀ i : grid0.Coords, EltTy.bits .f32 = 32 ∨ (Rect.block (s := S2x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S2x1x8192.size a
  hwx0_2 : ∀ i : grid0.Coords, EltTy.bits .f32 = 32 ∨ (Rect.block (s := S2x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)

variable [Facts₀]

abbrev win0_0 : Pipeline.Window sig grid0 :=
  Pipeline.Window.ofSpec (Memref.whole main_arg1) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8192x3 : Shape := ⟨3, ![2, 8192, 3]⟩
abbrev S2x8192 : Shape := ⟨2, ![2, 8192]⟩
abbrev S_ : Shape := ⟨0, ![]⟩
abbrev S2x8192x1 : Shape := ⟨3, ![2, 8192, 1]⟩
abbrev S2x1x8192 : Shape := ⟨3, ![2, 1, 8192]⟩
abbrev S2x8192x8192 : Shape := ⟨3, ![2, 8192, 8192]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S2x8192x3, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S2x8192x3, .f32⟩
  | .hbm, ⟨8, _⟩ => ⟨S_, .f32⟩
  | .hbm, ⟨9, _⟩ => ⟨S2x8192, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S2x8192x8192, .f32⟩
  | .hbm, ⟨15, _⟩ => ⟨S_, .f32⟩
  | .hbm, ⟨16, _⟩ => ⟨S2x8192x8192, .f32⟩
  | .hbm, ⟨17, _⟩ => ⟨S2x8192x8192, .f32⟩
  | .hbm, ⟨18, _⟩ => ⟨S2x8192x8192, .f32⟩
  | .hbm, ⟨19, _⟩ => ⟨S_, .f32⟩
  | .hbm, ⟨20, _⟩ => ⟨S2x8192, .f32⟩
  | .hbm, ⟨21, _⟩ => ⟨S_, .f32⟩
  | .hbm, ⟨22, _⟩ => ⟨S2x8192, .f32⟩
  | .hbm, ⟨23, _⟩ => ⟨S2x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S_d0_1 : S2x8192.ReducesTo [0, 1] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.RunsIdeal.lean ====
/-
  The kernel body run once per control case, on any whole staging buffers.

  A grid point is in one of three cases, by its row-tile and column-tile coordinates:
  * the first point of a batch entry (both coordinates zero): both running blocks are reset to +∞ before they are used;
  * the first column tile of a later row of tiles: only the row block is reset, the column block is carried over;
  * any other point: both blocks are carried over from the point before.
  In each case the body ends with the two input blocks as it found them and the two running blocks overwritten by its
  stores, which the run records as lists of pieces (newest first).  Where a block is reset its earlier contents do not
  matter; where it is carried, the stores are applied over what the point before left.
-/
import proofs.«102794_j51427938402462_2_alg».proof.Proof.Gen.KernelIdeal.Frame
import proofs.«102794_j51427938402462_2_alg».proof.Proof.Gen.KernelIdeal.Skeleton
import Idealize.ShloMosaic.Lib.WritesUnit

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, as functions of the grid coordinates -/

/-- "Row tile 0 and column tile 0": the condition of the reset of the column block. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- "Column tile 0": the condition of the reset of the row block. -/
abbrev cond0_1 (i : grid0.Coords) : Prop :=
  (Scalar.cmpi .ne (Scalar.extui (Scalar.cmpi .eq (BitVec.ofNat 32 (i 2).val) 0#32)) 0#32) = 1#1

/-- The first holds at the first point of each batch entry (32 points each). -/
theorem hcond0_0 : ∀ t : Fin cfg0.N, cond0_0 (grid0.coords t) ↔ t.val % 32 = 0 :=
  (by decide +kernel : ∀ t : Fin grid0.N, cond0_0 (grid0.coords t) ↔ t.val % 32 = 0)
/-- The second holds at the first point of each row of tiles (8 points each). -/
theorem hcond0_1 : ∀ t : Fin cfg0.N, cond0_1 (grid0.coords t) ↔ t.val % 8 = 0 :=
  (by decide +kernel : ∀ t : Fin grid0.N, cond0_1 (grid0.coords t) ↔ t.val % 8 = 0)

/-! ## The staging buffers the body is called with at a point -/

abbrev ms0_0 (t : Fin cfg0.N) : Memref sig .tc .vmem S1x2048x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)

/-! ## The three runs -/

set_option maxHeartbeats 4000000 in
/-- First point of a batch entry: both running blocks are reset, so they may hold anything on entry. -/
noncomputable def kernelRun0_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i)
    (x0 : Vec F S1x2048x3 .f32) (x1 : Vec F S1x3x1024 .f32) :
    { L : List (View.Piece (Elt F) S1x1x2048 .f32) × List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_min_kernel i arg3 harg3 arg4 harg4 arg5 harg5 arg6 harg6) K } := by
  refine ⟨(?_, ?_), fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

set_option maxHeartbeats 4000000 in
/-- First column tile of a later row of tiles: the row block is reset (anything on entry), the column block is carried
    (`xo3` on entry) and only partly overwritten, so its stores are recorded over `xo3`. -/
noncomputable def kernelRun0_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : cond0_1 i)
    (x0 : Vec F S1x2048x3 .f32) (x1 : Vec F S1x3x1024 .f32) (xo3 : Vec F S1x1x8192 .f32) :
    { L : List (View.Piece (Elt F) S1x1x2048 .f32) × List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__chamfer_min_kernel i arg3 harg3 arg4 harg4 arg5 harg5 arg6 harg6) K } := by
  refine ⟨(?_, ?_), fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

set_option maxHeartbeats 4000000 in
/-- Any other point: both running blocks are carried (`xo2`, `xo3` on entry); the row block is overwritten whole, the
    column block partly, over `xo3`. -/
noncomputable def kernelRun0_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i)
    (x0 : Vec F S1x2048x3 .f32) (x1 : Vec F S1x3x1024 .f32) (xo2 : Vec F S1x1x2048 .f32) (xo3 : Vec F S1x1x8192 .f32) :
    { L : List (View.Piece (Elt F) S1x1x2048 .f32) × List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__chamfer_min_kernel i arg3 harg3 arg4 harg4 arg5 harg5 arg6 harg6) K } := by
  refine ⟨(?_, ?_), fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Body

end
-- ==== Proof.FrameIdeal.lean ====
/-
  The frame of the kernel's one region, with the contents of both running blocks named point by point.

  `outsAt0 n` is the pair (row block, column block) the body leaves in the two output staging buffers after grid point
  `n`, by recursion on the point: at the first point of a batch entry both are what the reset case leaves; at the first
  column tile of a later row of tiles the row block is reset and the column block continues from the point before; at
  any other point both continue from the point before.  That recursion is sound because the pipeline does not write a
  block back (and so does not hand the body a fresh buffer) between two points that share the block: the row block is
  written back after every eighth point, the column block after every thirty-second.  With these contents as the
  proof data, each point's body run is the run of its case, and the launch theorem gives the whole region's run, the
  host operations around it, and the frame.
-/
import proofs.«102794_j51427938402462_2_alg».proof.Proof.RunsIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two running blocks -/

/-- One staging buffer of each output window, through which covered contents are stated (the choice does not matter). -/
abbrev VO0_2 : View sig .tc .vmem S1x1x2048 .f32 := (Memref.whole cc0_stg2_0 : Memref sig .tc .vmem S1x1x2048 .f32).view
abbrev VO0_3 : View sig .tc .vmem S1x1x8192 .f32 := (Memref.whole cc0_stg3_0 : Memref sig .tc .vmem S1x1x8192 .f32).view

/-- In every case the row block's stores include a store of the whole block, so they cover it. -/
theorem cover0_A_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (x0 : Vec F S1x2048x3 .f32) (x1 : Vec F S1x3x1024 .f32) (y : S1x1x2048.Idx) :
    ∃ pc ∈ (kernelRun0_A c i arg3 harg3 arg4 harg4 arg5 harg5 arg6 harg6 hc0 hc1 x0 x1).1.1, y ∈ pc.1.set :=
  View.cover_of_wholeMem _ (by sl_whole_mem) y
theorem cover0_C_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : cond0_1 i) (x0 : Vec F S1x2048x3 .f32) (x1 : Vec F S1x3x1024 .f32) (xo3 : Vec F S1x1x8192 .f32) (y : S1x1x2048.Idx) :
    ∃ pc ∈ (kernelRun0_C c i arg3 harg3 arg4 harg4 arg5 harg5 arg6 harg6 hc0 hc1 x0 x1 xo3).1.1, y ∈ pc.1.set :=
  View.cover_of_wholeMem _ (by sl_whole_mem) y
theorem cover0_B_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x3x1024 .f32) (xo2 : Vec F S1x1x2048 .f32) (xo3 : Vec F S1x1x8192 .f32) (y : S1x1x2048.Idx) :
    ∃ pc ∈ (kernelRun0_B c i arg3 harg3 arg4 harg4 arg5 harg5 arg6 harg6 hc0 hc1 x0 x1 xo2 xo3).1.1, y ∈ pc.1.set :=
  View.cover_of_wholeMem _ (by sl_whole_mem) y
/-- At the first point of a batch entry the column block's stores include the reset of the whole block. -/
theorem cover0_A_3 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (x0 : Vec F S1x2048x3 .f32) (x1 : Vec F S1x3x1024 .f32) (y : S1x1x8192.Idx) :
    ∃ pc ∈ (kernelRun0_A c i arg3 harg3 arg4 harg4 arg5 harg5 arg6 harg6 hc0 hc1 x0 x1).1.2, y ∈ pc.1.set :=
  View.cover_of_wholeMem _ (by sl_whole_mem) y

/-- The row block after a point of each case: its stores read back (they cover it, so over anything). -/
def out0_A_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (x0 : Vec F S1x2048x3 .f32) (x1 : Vec F S1x3x1024 .f32) : Vec F S1x1x2048 .f32 :=
  VO0_2.read (Elt F) (VO0_2.writes (Elt F) VO0_2.junk (kernelRun0_A c i arg3 harg3 arg4 harg4 arg5 harg5 arg6 harg6 hc0 hc1 x0 x1).1.1)
def out0_C_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : cond0_1 i) (x0 : Vec F S1x2048x3 .f32) (x1 : Vec F S1x3x1024 .f32) (xo3 : Vec F S1x1x8192 .f32) : Vec F S1x1x2048 .f32 :=
  VO0_2.read (Elt F) (VO0_2.writes (Elt F) VO0_2.junk (kernelRun0_C c i arg3 harg3 arg4 harg4 arg5 harg5 arg6 harg6 hc0 hc1 x0 x1 xo3).1.1)
def out0_B_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x3x1024 .f32) (xo2 : Vec F S1x1x2048 .f32) (xo3 : Vec F S1x1x8192 .f32) : Vec F S1x1x2048 .f32 :=
  VO0_2.read (Elt F) (VO0_2.writes (Elt F) VO0_2.junk (kernelRun0_B c i arg3 harg3 arg4 harg4 arg5 harg5 arg6 harg6 hc0 hc1 x0 x1 xo2 xo3).1.1)
/-- The column block after the first point of a batch entry: its stores read back (the reset covers it); -/
def out0_A_3 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (x0 : Vec F S1x2048x3 .f32) (x1 : Vec F S1x3x1024 .f32) : Vec F S1x1x8192 .f32 :=
  VO0_3.read (Elt F) (VO0_3.writes (Elt F) VO0_3.junk (kernelRun0_A c i arg3 harg3 arg4 harg4 arg5 harg5 arg6 harg6 hc0 hc1 x0 x1).1.2)
/-- after any other point: its stores applied over what the block held (`xo3`), read back. -/
def out0_C_3 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : cond0_1 i) (x0 : Vec F S1x2048x3 .f32) (x1 : Vec F S1x3x1024 .f32) (xo3 : Vec F S1x1x8192 .f32) : Vec F S1x1x8192 .f32 :=
  arg6.view.read (Elt F) (arg6.view.writes (Elt F) (harg6.unread xo3) (kernelRun0_C c i arg3 harg3 arg4 harg4 arg5 harg5 arg6 harg6 hc0 hc1 x0 x1 xo3).1.2)
def out0_B_3 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x3x1024 .f32) (xo2 : Vec F S1x1x2048 .f32) (xo3 : Vec F S1x1x8192 .f32) : Vec F S1x1x8192 .f32 :=
  arg6.view.read (Elt F) (arg6.view.writes (Elt F) (harg6.unread xo3) (kernelRun0_B c i arg3 harg3 arg4 harg4 arg5 harg5 arg6 harg6 hc0 hc1 x0 x1 xo2 xo3).1.2)

/-! ## The two running blocks after each point -/

/-- The pair (row block, column block) after point `n`, by recursion on the point. -/
def outsAt0 (c : Dev nD) : (n : ℕ) → n < cfg0.N → Vec F S1x1x2048 .f32 × Vec F S1x1x8192 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) ((hcond0_1 ⟨n + 1, hn⟩).mpr (by dsimp only; omega)) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) ((hcond0_1 ⟨n + 1, hn⟩).mpr (by dsimp only; omega)) (iblk m c 0 ⟨n + 1, hn⟩) (iblk m c 1 ⟨n + 1, hn⟩))
    else if h1 : (n + 1) % 8 = 0 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At the first point of a batch entry: the reset case's contents. -/
theorem outsAt0_A (c : Dev nD) (t : Fin cfg0.N) (h0 : t.val % 32 = 0) (h1 : t.val % 8 = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr h0) ((hcond0_1 t).mpr h1) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr h0) ((hcond0_1 t).mpr h1) (iblk m c 0 t) (iblk m c 1 t)) := by
  obtain ⟨n, hn⟩ := t
  cases n with
  | zero => exact rfl
  | succ n => exact (dif_pos h0).trans rfl

/-- At the first column tile of a later row of tiles: the row block reset, the column block continued. -/
theorem outsAt0_C (c : Dev nD) (t : Fin cfg0.N) (h0 : ¬t.val % 32 = 0) (h1 : t.val % 8 = 0) :
    outsAt0 m c t.val t.isLt =
      (out0_C_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2,
       out0_C_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- At any other point: both blocks continued. -/
theorem outsAt0_B (c : Dev nD) (t : Fin cfg0.N) (h0 : ¬t.val % 32 = 0) (h1 : ¬t.val % 8 = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-! ## The proof data -/

/-- The arrays as the region finds them; after the body at a point each input buffer at its block and the two
    output buffers at the running blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Off the first column tile the row block's buffer holds what the point before left: it was not written back between. -/
theorem before0_2_kept (c : Dev nD) (t : Fin cfg0.N) (h1 : ¬t.val % 8 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
/-- Off the first point of a batch entry the column block's buffer holds what the point before left. -/
theorem before0_3_kept (c : Dev nD) (t : Fin cfg0.N) (h0 : ¬t.val % 32 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 2000000 in
/-- The body at any point: the closed forms of the two conditions say which case the point is in; a block the case
    continues holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 32 = 0
  · have h1 : t.val % 8 = 0 := by omega
    rw [outsAt0_A m c t h0 h1]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) ((hcond0_1 t).mpr h1) (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    unfold owns; iexists _; isplitr
    swap; · iexact H3
    ipureintro; exact View.read_writes_of_cover _ _ _ _ _ (cover0_A_3 c _ _ _ _ _ _ _ _ _ _ _ _ _)
  · by_cases h1 : t.val % 8 = 0
    · rw [outsAt0_C m c t h0 h1]
      dsimp only
      simp only [before0_3_kept m c t h0]
      unfold out0_C_2 out0_C_3
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) ((hcond0_1 t).mpr h1) (iblk m c 0 t) (iblk m c 1 t) _).2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _)
      unfold owns; iexists _; isplitr
      swap; · iexact H3
      ipureintro; rfl
    · rw [outsAt0_B m c t h0 h1]
      dsimp only
      simp only [before0_2_kept m c t h1, before0_3_kept m c t h0]
      unfold out0_B_2 out0_B_3
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) (fun h => h1 ((hcond0_1 t).mp h)) (iblk m c 0 t) (iblk m c 1 t) _ _).2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      unfold owns; iexists _; isplitr
      swap; · iexact H3
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, and every other unscoped buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.RunsBits.lean ====
/-
  The kernel body run once per control case, on any whole staging buffers.

  A grid point is in one of three cases, by its row-tile and column-tile coordinates:
  * the first point of a batch entry (both coordinates zero): both running blocks are reset to +∞ before they are used;
  * the first column tile of a later row of tiles: only the row block is reset, the column block is carried over;
  * any other point: both blocks are carried over from the point before.
  In each case the body ends with the two input blocks as it found them and the two running blocks overwritten by its
  stores, which the run records as lists of pieces (newest first).  Where a block is reset its earlier contents do not
  matter; where it is carried, the stores are applied over what the point before left.
-/
import proofs.«102794_j51427938402462_2_alg».proof.Proof.Gen.Kernel.Frame
import proofs.«102794_j51427938402462_2_alg».proof.Proof.Gen.Kernel.Skeleton
import Idealize.ShloMosaic.Lib.WritesUnit

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, as functions of the grid coordinates -/

/-- "Row tile 0 and column tile 0": the condition of the reset of the column block. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- "Column tile 0": the condition of the reset of the row block. -/
abbrev cond0_1 (i : grid0.Coords) : Prop :=
  (Scalar.cmpi .ne (Scalar.extui (Scalar.cmpi .eq (BitVec.ofNat 32 (i 2).val) 0#32)) 0#32) = 1#1

/-- The first holds at the first point of each batch entry (32 points each). -/
theorem hcond0_0 : ∀ t : Fin cfg0.N, cond0_0 (grid0.coords t) ↔ t.val % 32 = 0 :=
  (by decide +kernel : ∀ t : Fin grid0.N, cond0_0 (grid0.coords t) ↔ t.val % 32 = 0)
/-- The second holds at the first point of each row of tiles (8 points each). -/
theorem hcond0_1 : ∀ t : Fin cfg0.N, cond0_1 (grid0.coords t) ↔ t.val % 8 = 0 :=
  (by decide +kernel : ∀ t : Fin grid0.N, cond0_1 (grid0.coords t) ↔ t.val % 8 = 0)

/-! ## The staging buffers the body is called with at a point -/

abbrev ms0_0 (t : Fin cfg0.N) : Memref sig .tc .vmem S1x2048x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)

/-! ## The three runs -/

set_option maxHeartbeats 4000000 in
/-- First point of a batch entry: both running blocks are reset, so they may hold anything on entry. -/
noncomputable def kernelRun0_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i)
    (x0 : Vec F S1x2048x3 .f32) (x1 : Vec F S1x3x1024 .f32) :
    { L : List (View.Piece (Elt F) S1x1x2048 .f32) × List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_min_kernel i arg3 harg3 arg4 harg4 arg5 harg5 arg6 harg6) K } := by
  refine ⟨(?_, ?_), fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

set_option maxHeartbeats 4000000 in
/-- First column tile of a later row of tiles: the row block is reset (anything on entry), the column block is carried
    (`xo3` on entry) and only partly overwritten, so its stores are recorded over `xo3`. -/
noncomputable def kernelRun0_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : cond0_1 i)
    (x0 : Vec F S1x2048x3 .f32) (x1 : Vec F S1x3x1024 .f32) (xo3 : Vec F S1x1x8192 .f32) :
    { L : List (View.Piece (Elt F) S1x1x2048 .f32) × List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__chamfer_min_kernel i arg3 harg3 arg4 harg4 arg5 harg5 arg6 harg6) K } := by
  refine ⟨(?_, ?_), fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

set_option maxHeartbeats 4000000 in
/-- Any other point: both running blocks are carried (`xo2`, `xo3` on entry); the row block is overwritten whole, the
    column block partly, over `xo3`. -/
noncomputable def kernelRun0_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i)
    (x0 : Vec F S1x2048x3 .f32) (x1 : Vec F S1x3x1024 .f32) (xo2 : Vec F S1x1x2048 .f32) (xo3 : Vec F S1x1x8192 .f32) :
    { L : List (View.Piece (Elt F) S1x1x2048 .f32) × List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__chamfer_min_kernel i arg3 harg3 arg4 harg4 arg5 harg5 arg6 harg6) K } := by
  refine ⟨(?_, ?_), fun E K => ?run⟩
  case run =>
    simp only [cc0__chamfer_min_kernel_eq_skeleton]; unfold cc0__chamfer_min_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Body

end
-- ==== Proof.FrameBits.lean ====
/-
  The frame of the kernel's one region, with the contents of both running blocks named point by point.

  `outsAt0 n` is the pair (row block, column block) the body leaves in the two output staging buffers after grid point
  `n`, by recursion on the point: at the first point of a batch entry both are what the reset case leaves; at the first
  column tile of a later row of tiles the row block is reset and the column block continues from the point before; at
  any other point both continue from the point before.  That recursion is sound because the pipeline does not write a
  block back (and so does not hand the body a fresh buffer) between two points that share the block: the row block is
  written back after every eighth point, the column block after every thirty-second.  With these contents as the
  proof data, each point's body run is the run of its case, and the launch theorem gives the whole region's run, the
  host operations around it, and the frame.
-/
import proofs.«102794_j51427938402462_2_alg».proof.Proof.RunsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two running blocks -/

/-- One staging buffer of each output window, through which covered contents are stated (the choice does not matter). -/
abbrev VO0_2 : View sig .tc .vmem S1x1x2048 .f32 := (Memref.whole cc0_stg2_0 : Memref sig .tc .vmem S1x1x2048 .f32).view
abbrev VO0_3 : View sig .tc .vmem S1x1x8192 .f32 := (Memref.whole cc0_stg3_0 : Memref sig .tc .vmem S1x1x8192 .f32).view

/-- In every case the row block's stores include a store of the whole block, so they cover it. -/
theorem cover0_A_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (x0 : Vec F S1x2048x3 .f32) (x1 : Vec F S1x3x1024 .f32) (y : S1x1x2048.Idx) :
    ∃ pc ∈ (kernelRun0_A c i arg3 harg3 arg4 harg4 arg5 harg5 arg6 harg6 hc0 hc1 x0 x1).1.1, y ∈ pc.1.set :=
  View.cover_of_wholeMem _ (by sl_whole_mem) y
theorem cover0_C_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : cond0_1 i) (x0 : Vec F S1x2048x3 .f32) (x1 : Vec F S1x3x1024 .f32) (xo3 : Vec F S1x1x8192 .f32) (y : S1x1x2048.Idx) :
    ∃ pc ∈ (kernelRun0_C c i arg3 harg3 arg4 harg4 arg5 harg5 arg6 harg6 hc0 hc1 x0 x1 xo3).1.1, y ∈ pc.1.set :=
  View.cover_of_wholeMem _ (by sl_whole_mem) y
theorem cover0_B_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x3x1024 .f32) (xo2 : Vec F S1x1x2048 .f32) (xo3 : Vec F S1x1x8192 .f32) (y : S1x1x2048.Idx) :
    ∃ pc ∈ (kernelRun0_B c i arg3 harg3 arg4 harg4 arg5 harg5 arg6 harg6 hc0 hc1 x0 x1 xo2 xo3).1.1, y ∈ pc.1.set :=
  View.cover_of_wholeMem _ (by sl_whole_mem) y
/-- At the first point of a batch entry the column block's stores include the reset of the whole block. -/
theorem cover0_A_3 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (x0 : Vec F S1x2048x3 .f32) (x1 : Vec F S1x3x1024 .f32) (y : S1x1x8192.Idx) :
    ∃ pc ∈ (kernelRun0_A c i arg3 harg3 arg4 harg4 arg5 harg5 arg6 harg6 hc0 hc1 x0 x1).1.2, y ∈ pc.1.set :=
  View.cover_of_wholeMem _ (by sl_whole_mem) y

/-- The row block after a point of each case: its stores read back (they cover it, so over anything). -/
def out0_A_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (x0 : Vec F S1x2048x3 .f32) (x1 : Vec F S1x3x1024 .f32) : Vec F S1x1x2048 .f32 :=
  VO0_2.read (Elt F) (VO0_2.writes (Elt F) VO0_2.junk (kernelRun0_A c i arg3 harg3 arg4 harg4 arg5 harg5 arg6 harg6 hc0 hc1 x0 x1).1.1)
def out0_C_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : cond0_1 i) (x0 : Vec F S1x2048x3 .f32) (x1 : Vec F S1x3x1024 .f32) (xo3 : Vec F S1x1x8192 .f32) : Vec F S1x1x2048 .f32 :=
  VO0_2.read (Elt F) (VO0_2.writes (Elt F) VO0_2.junk (kernelRun0_C c i arg3 harg3 arg4 harg4 arg5 harg5 arg6 harg6 hc0 hc1 x0 x1 xo3).1.1)
def out0_B_2 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x3x1024 .f32) (xo2 : Vec F S1x1x2048 .f32) (xo3 : Vec F S1x1x8192 .f32) : Vec F S1x1x2048 .f32 :=
  VO0_2.read (Elt F) (VO0_2.writes (Elt F) VO0_2.junk (kernelRun0_B c i arg3 harg3 arg4 harg4 arg5 harg5 arg6 harg6 hc0 hc1 x0 x1 xo2 xo3).1.1)
/-- The column block after the first point of a batch entry: its stores read back (the reset covers it); -/
def out0_A_3 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (x0 : Vec F S1x2048x3 .f32) (x1 : Vec F S1x3x1024 .f32) : Vec F S1x1x8192 .f32 :=
  VO0_3.read (Elt F) (VO0_3.writes (Elt F) VO0_3.junk (kernelRun0_A c i arg3 harg3 arg4 harg4 arg5 harg5 arg6 harg6 hc0 hc1 x0 x1).1.2)
/-- after any other point: its stores applied over what the block held (`xo3`), read back. -/
def out0_C_3 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : cond0_1 i) (x0 : Vec F S1x2048x3 .f32) (x1 : Vec F S1x3x1024 .f32) (xo3 : Vec F S1x1x8192 .f32) : Vec F S1x1x8192 .f32 :=
  arg6.view.read (Elt F) (arg6.view.writes (Elt F) (harg6.unread xo3) (kernelRun0_C c i arg3 harg3 arg4 harg4 arg5 harg5 arg6 harg6 hc0 hc1 x0 x1 xo3).1.2)
def out0_B_3 (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x3x1024 .f32) (xo2 : Vec F S1x1x2048 .f32) (xo3 : Vec F S1x1x8192 .f32) : Vec F S1x1x8192 .f32 :=
  arg6.view.read (Elt F) (arg6.view.writes (Elt F) (harg6.unread xo3) (kernelRun0_B c i arg3 harg3 arg4 harg4 arg5 harg5 arg6 harg6 hc0 hc1 x0 x1 xo2 xo3).1.2)

/-! ## The two running blocks after each point -/

/-- The pair (row block, column block) after point `n`, by recursion on the point. -/
def outsAt0 (c : Dev nD) : (n : ℕ) → n < cfg0.N → Vec F S1x1x2048 .f32 × Vec F S1x1x8192 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) ((hcond0_1 ⟨n + 1, hn⟩).mpr (by dsimp only; omega)) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) ((hcond0_1 ⟨n + 1, hn⟩).mpr (by dsimp only; omega)) (iblk m c 0 ⟨n + 1, hn⟩) (iblk m c 1 ⟨n + 1, hn⟩))
    else if h1 : (n + 1) % 8 = 0 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At the first point of a batch entry: the reset case's contents. -/
theorem outsAt0_A (c : Dev nD) (t : Fin cfg0.N) (h0 : t.val % 32 = 0) (h1 : t.val % 8 = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr h0) ((hcond0_1 t).mpr h1) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr h0) ((hcond0_1 t).mpr h1) (iblk m c 0 t) (iblk m c 1 t)) := by
  obtain ⟨n, hn⟩ := t
  cases n with
  | zero => exact rfl
  | succ n => exact (dif_pos h0).trans rfl

/-- At the first column tile of a later row of tiles: the row block reset, the column block continued. -/
theorem outsAt0_C (c : Dev nD) (t : Fin cfg0.N) (h0 : ¬t.val % 32 = 0) (h1 : t.val % 8 = 0) :
    outsAt0 m c t.val t.isLt =
      (out0_C_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2,
       out0_C_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- At any other point: both blocks continued. -/
theorem outsAt0_B (c : Dev nD) (t : Fin cfg0.N) (h0 : ¬t.val % 32 = 0) (h1 : ¬t.val % 8 = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-! ## The proof data -/

/-- The arrays as the region finds them; after the body at a point each input buffer at its block and the two
    output buffers at the running blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Off the first column tile the row block's buffer holds what the point before left: it was not written back between. -/
theorem before0_2_kept (c : Dev nD) (t : Fin cfg0.N) (h1 : ¬t.val % 8 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
/-- Off the first point of a batch entry the column block's buffer holds what the point before left. -/
theorem before0_3_kept (c : Dev nD) (t : Fin cfg0.N) (h0 : ¬t.val % 32 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 2000000 in
/-- The body at any point: the closed forms of the two conditions say which case the point is in; a block the case
    continues holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 32 = 0
  · have h1 : t.val % 8 = 0 := by omega
    rw [outsAt0_A m c t h0 h1]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) ((hcond0_1 t).mpr h1) (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    unfold owns; iexists _; isplitr
    swap; · iexact H3
    ipureintro; exact View.read_writes_of_cover _ _ _ _ _ (cover0_A_3 c _ _ _ _ _ _ _ _ _ _ _ _ _)
  · by_cases h1 : t.val % 8 = 0
    · rw [outsAt0_C m c t h0 h1]
      dsimp only
      simp only [before0_3_kept m c t h0]
      unfold out0_C_2 out0_C_3
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) ((hcond0_1 t).mpr h1) (iblk m c 0 t) (iblk m c 1 t) _).2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _)
      unfold owns; iexists _; isplitr
      swap; · iexact H3
      ipureintro; rfl
    · rw [outsAt0_B m c t h0 h1]
      dsimp only
      simp only [before0_2_kept m c t h1, before0_3_kept m c t h0]
      unfold out0_B_2 out0_B_3
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) (fun h => h1 ((hcond0_1 t).mp h)) (iblk m c 0 t) (iblk m c 1 t) _ _).2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      unfold owns; iexists _; isplitr
      swap; · iexact H3
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, and every other unscoped buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.Finite.lean ====
/-
  Finiteness out of the precondition. The precondition evaluates, on every device, the conjunction of three
  "every entry has absolute value below +∞" tests to the all-ones word. Here the first two conjuncts are read
  back entry by entry: an extended real whose absolute value max x (-x) is strictly below ⊤ is neither ⊤ nor ⊥,
  so it is (the coercion of) a real number.
-/
import proofs.«102794_j51427938402462_2_alg».proof.Defs
import Idealize.ShloMosaic.Lib.ReduceAll
import Idealize.ShloMosaic.Lib.ValueIdx
import Idealize.ShloMosaic.PureOps.Ideal
import Idealize.ShloMosaic.PureOps.Ideal.Laws

namespace Cert.Chamfer.Finite

open Idealize.ShloMosaic Idealize.SL.Sem

/-- The rank-0 shape has exactly one index. -/
instance subsingleton_scalar_idx : Subsingleton Cert.Pre_finite_inputs.S_.Idx :=
  ⟨fun a b => funext fun d => d.elim0⟩

/-- An extended real whose absolute value `max x (-x)` compares strictly below the value of the
    pattern `0x7F800000` (which denotes ⊤) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- The conjunction of the three all-entries tests, separated, at abstract argument arrays: a reduction by
    `and` over every axis that comes out 1 met a 1 at every index, and the conjunction of one-bit words is 1
    only when each is. -/
theorem fn_split [Cert.Pre_finite_inputs.Facts]
    (a0 a1 : FVec Ideal Cert.Pre_finite_inputs.S2x8192x3 .f32) (a2 : FVec Ideal Cert.Pre_finite_inputs.S2x8192 .f32)
    (h : Cert.Pre_finite_inputs.fn (F := Ideal) a0 a1 a2 = (fun _ => 1#1)) :
    (∀ i, ∃ r : ℝ, a0 i = (r : EReal)) ∧ (∀ i, ∃ r : ℝ, a1 i = (r : EReal)) := by
  have h0 := congrFun h ValueIdx.ix0
  dsimp only [Cert.Pre_finite_inputs.fn, andi] at h0
  obtain ⟨h01, _⟩ := IntOp.andi_eq_one.1 h0
  obtain ⟨hA, hB⟩ := IntOp.andi_eq_one.1 h01
  refine ⟨fun i => ?_, fun i => ?_⟩
  · have e := Host.reduce_andi_all _ _ _ _ _ hA i
    exact real_of_abs_lt_inf (a0 i) e
  · have e := Host.reduce_andi_all _ _ _ _ _ hB i
    exact real_of_abs_lt_inf (a1 i) e

/-- Every entry of the first argument array is a real number, on every device. -/
theorem arg0_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2x8192x3.Idx) :
    ∃ r : ℝ, m ((c.tc : Thread Cert.KernelIdeal.nD Cert.KernelIdeal.τ).loc Cert.KernelIdeal.main_arg0) i = (r : EReal) :=
  (fn_split _ _ _ (h c)).1 i

/-- Every entry of the second argument array is a real number, on every device. -/
theorem arg1_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2x8192x3.Idx) :
    ∃ r : ℝ, m ((c.tc : Thread Cert.KernelIdeal.nD Cert.KernelIdeal.τ).loc Cert.KernelIdeal.main_arg1) i = (r : EReal) :=
  (fn_split _ _ _ (h c)).2 i

end Cert.Chamfer.Finite
-- ==== Proof.Spec.lean ====
/-
  The mathematics both programs compute, stated once over the extended reals.

  Two clouds of 8192 points of ℝ³ per batch entry (two batch entries): `pred` and `gt`, each an array [2, 8192, 3].
  For a batch entry `b`, a point `q` of `pred` and a point `p` of `gt` the squared distance is
  `(x₀ - y₀)² + (x₁ - y₁)² + (x₂ - y₂)²`, the three squares added left to right.  The two one-sided nearest-neighbour
  tables are the infimum of that quantity over the other cloud: for each `pred` point the nearest `gt` point
  (`nearestGt`, [2, 8192]) and for each `gt` point the nearest `pred` point (`nearestPred`, [2, 8192]).
  A minimum taken by folding `min` from `+∞` over a finite range is that infimum (`fold_min_top`).
-/
import Idealize.ShloMosaic.PureOps.Ideal
import Idealize.ShloMosaic.Lib.ValueIdx

noncomputable section

namespace Cert.Chamfer

open Idealize.ShloMosaic Idealize.ShloMosaic.ValueIdx

/-- A cloud array: batch entry, point, coordinate. -/
abbrev Cloud : Shape := ⟨3, ![2, 8192, 3]⟩
/-- A table with one entry per batch entry and point. -/
abbrev Table : Shape := ⟨2, ![2, 8192]⟩

/-- The squared distance between point `q` of `pred` and point `p` of `gt` in batch entry `b`: the three squared
    coordinate differences, added left to right. -/
def sqDist (pred gt : Cloud.Idx → EReal) (b : Fin 2) (q p : Fin 8192) : EReal :=
  ((pred (ix3 b q (0 : Fin 3)) - gt (ix3 b p (0 : Fin 3))) * (pred (ix3 b q (0 : Fin 3)) - gt (ix3 b p (0 : Fin 3)))
    + (pred (ix3 b q (1 : Fin 3)) - gt (ix3 b p (1 : Fin 3))) * (pred (ix3 b q (1 : Fin 3)) - gt (ix3 b p (1 : Fin 3))))
    + (pred (ix3 b q (2 : Fin 3)) - gt (ix3 b p (2 : Fin 3))) * (pred (ix3 b q (2 : Fin 3)) - gt (ix3 b p (2 : Fin 3)))

/-- For each point of `pred`: the squared distance to the nearest point of `gt`. -/
def nearestGt (pred gt : Cloud.Idx → EReal) : Table.Idx → EReal :=
  fun i => ⨅ p : Fin 8192, sqDist pred gt (i 0) (i 1) p

/-- For each point of `gt`: the squared distance to the nearest point of `pred`. -/
def nearestPred (pred gt : Cloud.Idx → EReal) : Table.Idx → EReal :=
  fun i => ⨅ q : Fin 8192, sqDist pred gt (i 0) q (i 1)

/-- Folding `min` from `+∞` over a whole finite range is the infimum over it. -/
theorem fold_min_top {ι : Type} [Fintype ι] (f : ι → EReal) :
    (Finset.univ : Finset ι).fold min ⊤ f = ⨅ i, f i := by
  rw [← Finset.inf_univ_eq_iInf]
  rfl

/-- The float word of `+∞` is the top of the extended reals. -/
theorem ofBits_inf : Ideal.ofBits .f32 0x7F800000#32 = (⊤ : EReal) := by
  simp [Ideal.ofBits, Ideal.ieee]

end Cert.Chamfer

end
-- ==== Proof.RefTables.lean ====
/-
  The reference program's two nearest-neighbour tables are the specification's.

  The reference forms the squared distance between point `q` of `pred` and point `p` of `gt` in the expanded form
  `(0 + Σ_d pred[q,d]²) + (0 + Σ_d gt[p,d]²) - 2 · Σ_d pred[q,d] · gt[p,d]`. For real coordinates this is
  `(x₀ - y₀)² + (x₁ - y₁)² + (x₂ - y₂)²` (`expand_sq`); the identity fails when a coordinate is infinite, which is why
  every statement below assumes both clouds finite. Each table is then a `min` folded from `+∞` over one axis of that
  array, which is the infimum over the other cloud.
-/
import proofs.«102794_j51427938402462_2_alg».proof.Proof.Gen.ReferenceIdeal.Read
import proofs.«102794_j51427938402462_2_alg».proof.Proof.Spec

noncomputable section

namespace Cert.Chamfer.Ref

open Cert.ReferenceIdeal Cert.ReferenceIdeal.Gen Cert.ReferenceIdeal.Read Idealize.ShloMosaic Idealize.ShloMosaic.ValueIdx

/-- The float word of `2` is the real number two. -/
theorem ofBits_two : Ideal.ofBits .f32 0x40000000#32 = ((2 : ℝ) : EReal) := by
  simp [Ideal.ofBits, Ideal.ieee, -EReal.coe_mul]; norm_num

/-- The expanded form of the squared distance is the sum of squared differences, for real coordinates. -/
theorem expand_sq (a0 a1 a2 b0 b1 b2 : ℝ) :
    ((0 : EReal) + ((a0 : EReal) * a0 + (a1 : EReal) * a1 + (a2 : EReal) * a2))
        + ((0 : EReal) + ((b0 : EReal) * b0 + (b1 : EReal) * b1 + (b2 : EReal) * b2))
        - ((2 : ℝ) : EReal) * ((a0 : EReal) * b0 + (a1 : EReal) * b1 + (a2 : EReal) * b2)
      = (((a0 : EReal) - b0) * ((a0 : EReal) - b0) + ((a1 : EReal) - b1) * ((a1 : EReal) - b1))
        + ((a2 : EReal) - b2) * ((a2 : EReal) - b2) := by
  rw [zero_add, zero_add]
  simp only [← EReal.coe_mul, ← EReal.coe_add, ← EReal.coe_sub]
  exact congrArg _ (by ring)

/-- At finite inputs the reference's distance array, read at batch entry `b`, `pred` point `q` and `gt` point `p`, is
    the squared distance between those two points. -/
theorem sqDist_eq (x0 x1 : (⟨Cert.ReferenceIdeal.S2x8192x3, .f32⟩ : BufTy).Contents (Elt Ideal))
    (h0 : ∀ i, ∃ r : ℝ, x0 i = (r : EReal)) (h1 : ∀ i, ∃ r : ℝ, x1 i = (r : EReal)) (b : Fin 2) (q p : Fin 8192) :
    Cert.ReferenceIdeal.Read.val_main_v12 (F := Ideal) x0 x1 (ValueIdx.ix3 b q p) = Cert.Chamfer.sqDist x1 x0 b q p := by
  have e1 : ∀ k : Fin 3, idx_main_v1 (idx_main_v2 (idx_main_v7 (ix3 b q p))) k = ix3 b q k := fun k =>
    funext fun a => Fin.ext (by match a with | ⟨0, _⟩ => rfl | ⟨1, _⟩ => rfl | ⟨2, _⟩ => rfl)
  have e4 : ∀ k : Fin 3, idx_main_v4 (idx_main_v5 (idx_main_v8 (ix3 b q p))) k = ix3 b p k := fun k =>
    funext fun a => Fin.ext (by match a with | ⟨0, _⟩ => rfl | ⟨1, _⟩ => rfl | ⟨2, _⟩ => rfl)
  have el : ∀ k : Fin 3, lidx_main_v6 (ix3 b q p) k = ix3 b q k := fun k =>
    funext fun a => Fin.ext (by match a with | ⟨0, _⟩ => rfl | ⟨1, _⟩ => rfl | ⟨2, _⟩ => rfl)
  have er : ∀ k : Fin 3, ridx_main_v6 (ix3 b q p) k = ix3 b p k := fun k =>
    funext fun a => Fin.ext (by match a with | ⟨0, _⟩ => rfl | ⟨1, _⟩ => rfl | ⟨2, _⟩ => rfl)
  rw [val_main_v12_apply, val_main_v9_apply, val_main_v7_apply, val_main_v2_apply, val_main_v1_apply,
    val_main_v8_apply, val_main_v5_apply, val_main_v4_apply, val_main_v11_apply, val_main_v10_apply,
    val_main_cst_1_apply, val_main_v6_apply, val_main_cst_apply, val_main_cst_0_apply]
  simp only [val_main_v0_apply, val_main_v3_apply, e1, e4, el, er, Fin.sum_univ_three, Ideal.ofBits_def,
    Ideal.addf_def, Ideal.subf_def, Ideal.mulf_def, Ideal.ofBits_zero_f32, ofBits_two]
  obtain ⟨a0, ha0⟩ := h1 (ix3 b q 0)
  obtain ⟨a1, ha1⟩ := h1 (ix3 b q 1)
  obtain ⟨a2, ha2⟩ := h1 (ix3 b q 2)
  obtain ⟨b0, hb0⟩ := h0 (ix3 b p 0)
  obtain ⟨b1, hb1⟩ := h0 (ix3 b p 1)
  obtain ⟨b2, hb2⟩ := h0 (ix3 b p 2)
  unfold Cert.Chamfer.sqDist
  rw [ha0, ha1, ha2, hb0, hb1, hb2]
  exact expand_sq a0 a1 a2 b0 b1 b2

/-- Inserting coordinate `k` on the last axis over the table index `(b, q)` gives `(b, q, k)`. -/
theorem lift_d2 (h : S2x8192x8192.Reduces [2] S2x8192) (b : Fin 2) (q : Fin 8192) (k : Fin 8192) :
    h.lift (ix2 b q) k = ix3 b q k :=
  funext fun a => Fin.ext (by match a with | ⟨0, _⟩ => rfl | ⟨1, _⟩ => rfl | ⟨2, _⟩ => rfl)

/-- Inserting coordinate `k` on the middle axis over the table index `(b, p)` gives `(b, k, p)`. -/
theorem lift_d1 (h : S2x8192x8192.Reduces [1] S2x8192) (b : Fin 2) (p : Fin 8192) (k : Fin 8192) :
    h.lift (ix2 b p) k = ix3 b k p :=
  funext fun a => Fin.ext (by match a with | ⟨0, _⟩ => rfl | ⟨1, _⟩ => rfl | ⟨2, _⟩ => rfl)

/-- The reference's minimum over the last axis is, for each `pred` point, the squared distance to the nearest `gt` point. -/
theorem ref_nearestGt (x0 x1 : (⟨Cert.ReferenceIdeal.S2x8192x3, .f32⟩ : BufTy).Contents (Elt Ideal))
    (h0 : ∀ i, ∃ r : ℝ, x0 i = (r : EReal)) (h1 : ∀ i, ∃ r : ℝ, x1 i = (r : EReal)) :
    Cert.ReferenceIdeal.Read.val_main_v13 (F := Ideal) x0 x1 = Cert.Chamfer.nearestGt x1 x0 := by
  funext j
  obtain ⟨b, q, rfl⟩ : ∃ (b : Fin 2) (q : Fin 8192), j = ix2 b q := ⟨j 0, j 1, eq_ix2 j⟩
  have h : S2x8192x8192.Reduces [2] S2x8192 := by decide
  unfold val_main_v13
  rw [Host.reduce_eq_fold_single FloatOps.minimumf _ _ Facts₀.reducesTo_S2x8192x8192_S2x8192_d2 h Facts₀.h_S_ (ix2 b q),
    val_main_cst_2_apply, Ideal.ofBits_def, Cert.Chamfer.ofBits_inf]
  refine (Cert.Chamfer.fold_min_top _).trans ?_
  show (⨅ k : Fin 8192, val_main_v12 (F := Ideal) x0 x1 (h.lift (ix2 b q) k)) = ⨅ p : Fin 8192, Cert.Chamfer.sqDist x1 x0 b q p
  exact iInf_congr fun k => by rw [lift_d2 h b q k, sqDist_eq x0 x1 h0 h1 b q k]

/-- The reference's minimum over the middle axis is, for each `gt` point, the squared distance to the nearest `pred` point. -/
theorem ref_nearestPred (x0 x1 : (⟨Cert.ReferenceIdeal.S2x8192x3, .f32⟩ : BufTy).Contents (Elt Ideal))
    (h0 : ∀ i, ∃ r : ℝ, x0 i = (r : EReal)) (h1 : ∀ i, ∃ r : ℝ, x1 i = (r : EReal)) :
    Cert.ReferenceIdeal.Read.val_main_v14 (F := Ideal) x0 x1 = Cert.Chamfer.nearestPred x1 x0 := by
  funext j
  obtain ⟨b, p, rfl⟩ : ∃ (b : Fin 2) (p : Fin 8192), j = ix2 b p := ⟨j 0, j 1, eq_ix2 j⟩
  have h : S2x8192x8192.Reduces [1] S2x8192 := by decide
  unfold val_main_v14
  rw [Host.reduce_eq_fold_single FloatOps.minimumf _ _ Facts₀.reducesTo_S2x8192x8192_S2x8192_d1 h Facts₀.h_S_ (ix2 b p),
    val_main_cst_3_apply, Ideal.ofBits_def, Cert.Chamfer.ofBits_inf]
  refine (Cert.Chamfer.fold_min_top _).trans ?_
  show (⨅ k : Fin 8192, val_main_v12 (F := Ideal) x0 x1 (h.lift (ix2 b p) k)) = ⨅ q : Fin 8192, Cert.Chamfer.sqDist x1 x0 b q p
  exact iInf_congr fun k => by rw [lift_d1 h b p k, sqDist_eq x0 x1 h0 h1 b k p]

end Cert.Chamfer.Ref

end
-- ==== Proof.TailIdeal.lean ====
/-
  The host tail both programs share: from the two nearest-neighbour tables and the mask to the two scalar results.

  `masked = (Σ over the whole table of R · mask, from 0) / 16384` and `loss = masked + (Σ over the whole of C, from 0) / 16384`,
  where `R` has one entry per `pred` point and `C` one per `gt` point. Both programs apply exactly these operations, so the
  tail is named once (`maskedOf`, `lossOf`) and never opened: each program's two results are these functions of its own two
  tables and the mask. In the kernel program the two tables are the region's two output arrays, of shape [2, 1, 8192], with
  the unit middle axis dropped (`reshape_apply`); the statements there hold whatever those arrays contain.
-/
import proofs.«102794_j51427938402462_2_alg».proof.Proof.Gen.ReferenceIdeal.Read
import proofs.«102794_j51427938402462_2_alg».proof.Proof.Gen.KernelIdeal.Frame
import proofs.«102794_j51427938402462_2_alg».proof.Proof.Spec
import Idealize.ShloMosaic.Lib.StableHlo.Run
import Idealize.ShloMosaic.Lib.Pipeline.Value
import Idealize.ShloMosaic.Lib.ValueIdx

noncomputable section

namespace Cert.Chamfer.Tail

open Idealize.ShloMosaic Idealize.ShloMosaic.ValueIdx

/-- The scalar shape. -/
abbrev Sc : Shape := ⟨0, ![]⟩

/-- Summing a table over both its axes leaves a scalar. -/
theorem table_reducesTo : Cert.Chamfer.Table.ReducesTo [0, 1] Sc := by decide
/-- The scalar shape has one element. -/
theorem sc_pos : 0 < Sc.numel := by decide

/-- The masked mean: the sum over the whole table of `R * mask`, from zero, divided by the constant `16384`. -/
def maskedOf (R mask : Cert.Chamfer.Table.Idx → EReal) : Sc.Idx → EReal :=
  Host.divf (F := Ideal) (φ := .f32)
    (Host.reduceAdd (F := Ideal) (φ := .f32) (mulf (F := Ideal) (φ := .f32) R mask)
      (constant (F := Ideal) Sc .f32 0x00000000#32) table_reducesTo sc_pos)
    (constant (F := Ideal) Sc .f32 0x46800000#32)

/-- The loss: the masked mean of `R` plus the mean of `C`. -/
def lossOf (R C mask : Cert.Chamfer.Table.Idx → EReal) : Sc.Idx → EReal :=
  addf (F := Ideal) (φ := .f32) (maskedOf R mask)
    (Host.divf (F := Ideal) (φ := .f32)
      (Host.reduceAdd (F := Ideal) (φ := .f32) C (constant (F := Ideal) Sc .f32 0x00000000#32) table_reducesTo sc_pos)
      (constant (F := Ideal) Sc .f32 0x46800000#32))

section Reference
open Cert.ReferenceIdeal Cert.ReferenceIdeal.Read

/-- The reference's second result is the masked mean of its row table. -/
theorem ref_masked (x0 x1 : (⟨Cert.ReferenceIdeal.S2x8192x3, .f32⟩ : BufTy).Contents (Elt Ideal))
    (x2 : (⟨Cert.ReferenceIdeal.S2x8192, .f32⟩ : BufTy).Contents (Elt Ideal)) :
    Cert.ReferenceIdeal.Read.val_main_v17 (F := Ideal) x0 x1 x2
      = maskedOf (Cert.ReferenceIdeal.Read.val_main_v13 (F := Ideal) x0 x1) x2 := rfl

/-- The reference's first result is the loss of its two tables. -/
theorem ref_loss (x0 x1 : (⟨Cert.ReferenceIdeal.S2x8192x3, .f32⟩ : BufTy).Contents (Elt Ideal))
    (x2 : (⟨Cert.ReferenceIdeal.S2x8192, .f32⟩ : BufTy).Contents (Elt Ideal)) :
    Cert.ReferenceIdeal.Read.val_main_v20 (F := Ideal) x0 x1 x2
      = lossOf (Cert.ReferenceIdeal.Read.val_main_v13 (F := Ideal) x0 x1)
          (Cert.ReferenceIdeal.Read.val_main_v14 (F := Ideal) x0 x1) x2 := rfl

end Reference

section Kernel
open Cert.KernelIdeal Cert.KernelIdeal.Gen Idealize.ShloMosaic.TcCoe Idealize.SL.Sem

/-- Dropping the unit middle axis keeps the row-major position: entry `(b, q)` of the table is entry `(b, 0, q)`,
    whichever proof of the cast's side condition the term carries. -/
theorem reshape_apply (x : Cert.KernelIdeal.S2x1x8192.Idx → EReal)
    (h : Cert.KernelIdeal.S2x1x8192.ShapeCasts Cert.KernelIdeal.S2x8192) (b : Fin 2) (q : Fin 8192) :
    shapeCast Cert.KernelIdeal.S2x8192 x h (ix2 b q) = x (ix3 b (0 : Fin 1) q) :=
  shapeCast_apply x h (ix2 b q) (ix3 b (0 : Fin 1) q) (by
    rw [Shape.rowMajor_val_three, Shape.rowMajor_val_two]
    show ((b.val * 1 + 0) * 8192 + q.val) = b.val * 8192 + q.val
    omega)

/-- The same at the side condition's proof as the kernel program's own text spells it. -/
theorem reshape_apply_gen (x : Cert.KernelIdeal.S2x1x8192.Idx → EReal) (b : Fin 2) (q : Fin 8192) :
    shapeCast Cert.KernelIdeal.S2x8192 x Cert.KernelIdeal.Gen.shapeCasts_S2x1x8192_S2x8192 (ix2 b q) = x (ix3 b (0 : Fin 1) q) :=
  reshape_apply x _ b q

variable (m : (ℓ : Loc nD τ sig) → Buf (Elt Ideal) ℓ)

/-- The host operations after the region find the region's first output array at its final contents. -/
theorem arr_v1_0 (dats : (p : Fin 1) → (c : Dev nD) → Pipeline.Dat τ (Elt Ideal) Unit ℕ (UR sig nD τ) ℕ (cfgs p) c) (c : Dev nD) :
    Pipeline.withArrays (cfgs 0).spec c (V0 m c) (fun w => (dats 0 c).arrAt w (cfgs 0).N) (Proc.devRef .tc main_v1_0)
      = (dats 0 c).arrAt 2 cfg0.N :=
  Pipeline.withArrays_arr spec0 launch0.win.arr_inj c _ _ 2

/-- And its second output array likewise. -/
theorem arr_v1_1 (dats : (p : Fin 1) → (c : Dev nD) → Pipeline.Dat τ (Elt Ideal) Unit ℕ (UR sig nD τ) ℕ (cfgs p) c) (c : Dev nD) :
    Pipeline.withArrays (cfgs 0).spec c (V0 m c) (fun w => (dats 0 c).arrAt w (cfgs 0).N) (Proc.devRef .tc main_v1_1)
      = (dats 0 c).arrAt 3 cfg0.N :=
  Pipeline.withArrays_arr spec0 launch0.win.arr_inj c _ _ 3

/-- The mask is no array of the region and no host operation before the region writes it: it is as launched. -/
theorem arr_arg2 (dats : (p : Fin 1) → (c : Dev nD) → Pipeline.Dat τ (Elt Ideal) Unit ℕ (UR sig nD τ) ℕ (cfgs p) c) (c : Dev nD) :
    Pipeline.withArrays (cfgs 0).spec c (V0 m c) (fun w => (dats 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- The kernel program's masked result is the masked mean of its first output array, reshaped to a table. -/
theorem ker_masked (dats : (p : Fin 1) → (c : Dev nD) → Pipeline.Dat τ (Elt Ideal) Unit ℕ (UR sig nD τ) ℕ (cfgs p) c) (c : Dev nD) :
    Pipeline.afterTail₀ cfgs dats 0 (V0 m) [hostOps1] c main_v6
      = maskedOf (shapeCast S2x8192 ((dats 0 c).arrAt 2 cfg0.N) shapeCasts_S2x1x8192_S2x8192) (m ((c : Thread nD τ).loc main_arg2)) := by
  unfold Pipeline.afterTail₀
  show StableHlo.after hostOps1 _ (Proc.devRef .tc main_v6) = _
  after_results
  show maskedOf (shapeCast S2x8192 (Pipeline.withArrays (cfgs 0).spec c (V0 m c) (fun w => (dats 0 c).arrAt w (cfgs 0).N) (Proc.devRef .tc main_v1_0)) shapeCasts_S2x1x8192_S2x8192)
      (Pipeline.withArrays (cfgs 0).spec c (V0 m c) (fun w => (dats 0 c).arrAt w (cfgs 0).N) (Proc.devRef .tc main_arg2)) = _
  rw [arr_v1_0 m dats c, arr_arg2 m dats c]

/-- The kernel program's loss result is the loss of its two output arrays, reshaped to tables. -/
theorem ker_loss (dats : (p : Fin 1) → (c : Dev nD) → Pipeline.Dat τ (Elt Ideal) Unit ℕ (UR sig nD τ) ℕ (cfgs p) c) (c : Dev nD) :
    Pipeline.afterTail₀ cfgs dats 0 (V0 m) [hostOps1] c main_v9
      = lossOf (shapeCast S2x8192 ((dats 0 c).arrAt 2 cfg0.N) shapeCasts_S2x1x8192_S2x8192)
          (shapeCast S2x8192 ((dats 0 c).arrAt 3 cfg0.N) shapeCasts_S2x1x8192_S2x8192) (m ((c : Thread nD τ).loc main_arg2)) := by
  unfold Pipeline.afterTail₀
  show StableHlo.after hostOps1 _ (Proc.devRef .tc main_v9) = _
  after_results
  show lossOf (shapeCast S2x8192 (Pipeline.withArrays (cfgs 0).spec c (V0 m c) (fun w => (dats 0 c).arrAt w (cfgs 0).N) (Proc.devRef .tc main_v1_0)) shapeCasts_S2x1x8192_S2x8192)
      (shapeCast S2x8192 (Pipeline.withArrays (cfgs 0).spec c (V0 m c) (fun w => (dats 0 c).arrAt w (cfgs 0).N) (Proc.devRef .tc main_v1_1)) shapeCasts_S2x1x8192_S2x8192)
      (Pipeline.withArrays (cfgs 0).spec c (V0 m c) (fun w => (dats 0 c).arrAt w (cfgs 0).N) (Proc.devRef .tc main_arg2)) = _
  rw [arr_v1_0 m dats c, arr_v1_1 m dats c, arr_arg2 m dats c]

end Kernel

end Cert.Chamfer.Tail

end
-- ==== Proof.Claims.lean ====
/-
  The five claims, assembled.

  The three frames are the runs' argument clauses. The idealization rewrote nothing, so it preserves trivially. For the
  equivalence at the ideal instance both programs end with the same host tail (`lossOf`, `maskedOf`) applied to two
  nearest-neighbour tables and the mask: the reference's tables are the specification's at finite inputs, which the
  precondition gives; the kernel program's are its region's two output arrays with the unit axis dropped, and are the
  specification's as soon as those arrays are (`hrows`, `hcols`). The witnesses are the specification's loss and masked
  mean of the kernel memory's three arguments.
-/
import proofs.«102794_j51427938402462_2_alg».proof.Defs
import proofs.«102794_j51427938402462_2_alg».proof.Proof.FrameIdeal
import proofs.«102794_j51427938402462_2_alg».proof.Proof.FrameBits
import proofs.«102794_j51427938402462_2_alg».proof.Proof.Finite
import proofs.«102794_j51427938402462_2_alg».proof.Proof.RefTables
import proofs.«102794_j51427938402462_2_alg».proof.Proof.TailIdeal
import proofs.«102794_j51427938402462_2_alg».proof.Proof.Gen.ReferenceIdeal.Run
import proofs.«102794_j51427938402462_2_alg».proof.Proof.Gen.ReferenceIdeal.Read
import proofs.«102794_j51427938402462_2_alg».proof.Proof.Gen.Kernel
import proofs.«102794_j51427938402462_2_alg».proof.Proof.Gen.KernelIdeal
import proofs.«102794_j51427938402462_2_alg».proof.Proof.Gen.ReferenceIdeal
import proofs.«102794_j51427938402462_2_alg».proof.Proof.Gen.Pre_finite_inputs

noncomputable section

namespace Cert.Proof.Claims

open Idealize.ShloMosaic Idealize.ShloMosaic.TcCoe Idealize.ShloMosaic.ValueIdx Idealize.SL.Sem
open Cert.Chamfer Cert.Chamfer.Tail

/-- The kernel program runs and leaves its arguments unchanged. -/
theorem frame_k : Cert.frame_Kernel := fun m ρ _ => Cert.Kernel.Body.frame (F := Bits) m ρ

/-- So does its reading at the ideal instance. -/
theorem frame_ki : Cert.frame_KernelIdeal := fun m ρ _ => Cert.KernelIdeal.Body.frame (F := Ideal) m ρ

/-- So does the reference: the argument clauses of its run. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten, so there is nothing to preserve. -/
theorem preserves : Cert.preserves_Kernel_KernelIdeal := trivial

/-- The equivalence, from the kernel program's two tables being the specification's. -/
theorem algebraic_of_tables
    (hR : ∀ (m : (ℓ : Loc Cert.KernelIdeal.nD Cert.KernelIdeal.τ Cert.KernelIdeal.sig) → Buf (Elt Ideal) ℓ) (c : Dev Cert.KernelIdeal.nD), shapeCast Cert.KernelIdeal.S2x8192 ((Cert.KernelIdeal.Body.dats m 0 c).arrAt 2 Cert.KernelIdeal.cfg0.N) Cert.KernelIdeal.Gen.shapeCasts_S2x1x8192_S2x8192 = nearestGt (m ((c.tc : Thread Cert.KernelIdeal.nD Cert.KernelIdeal.τ).loc Cert.KernelIdeal.main_arg1)) (m ((c.tc : Thread Cert.KernelIdeal.nD Cert.KernelIdeal.τ).loc Cert.KernelIdeal.main_arg0)))
    (hC : ∀ (m : (ℓ : Loc Cert.KernelIdeal.nD Cert.KernelIdeal.τ Cert.KernelIdeal.sig) → Buf (Elt Ideal) ℓ) (c : Dev Cert.KernelIdeal.nD), shapeCast Cert.KernelIdeal.S2x8192 ((Cert.KernelIdeal.Body.dats m 0 c).arrAt 3 Cert.KernelIdeal.cfg0.N) Cert.KernelIdeal.Gen.shapeCasts_S2x1x8192_S2x8192 = nearestPred (m ((c.tc : Thread Cert.KernelIdeal.nD Cert.KernelIdeal.τ).loc Cert.KernelIdeal.main_arg1)) (m ((c.tc : Thread Cert.KernelIdeal.nD Cert.KernelIdeal.τ).loc Cert.KernelIdeal.main_arg0))) :
    Cert.algebraic_KernelIdeal_ReferenceIdeal := by
  intro m ρ m' ρ' hpre hagree
  refine ⟨fun c => lossOf (nearestGt (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (nearestPred (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (m ((c.tc : Thread Cert.KernelIdeal.nD Cert.KernelIdeal.τ).loc Cert.KernelIdeal.main_arg2)),
    fun c => maskedOf (nearestGt (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_, ?_⟩) (Cert.KernelIdeal.Body.run_main (F := Ideal) m ρ)
    · refine ((h c).2 Cert.KernelIdeal.main_v9 (Pipeline.mem_restRefs_of Cert.KernelIdeal.main_v9 (by decide) (by decide))).trans ?_
      rw [ker_loss m (Cert.KernelIdeal.Body.dats m) c, hR m c, hC m c]
    · refine ((h c).2 Cert.KernelIdeal.main_v6 (Pipeline.mem_restRefs_of Cert.KernelIdeal.main_v6 (by decide) (by decide))).trans ?_
      rw [ker_masked m (Cert.KernelIdeal.Body.dats m) c, hR m c]
    · exact ((h c).2 Cert.KernelIdeal.main_arg0 (Pipeline.mem_restRefs_of Cert.KernelIdeal.main_arg0 (by decide) (by decide))).trans
        (Cert.KernelIdeal.Gen.W_main_arg0 m (Cert.KernelIdeal.Body.dats m) c)
    · exact ((h c).1 0).trans (((Cert.KernelIdeal.Body.dats m 0 c).arrAt_in 0 rfl _).trans
        ((Cert.KernelIdeal.Body.A_eq m c 0).trans (Cert.KernelIdeal.Gen.V_main_arg1 m c)))
    · exact ((h c).2 Cert.KernelIdeal.main_arg2 (Pipeline.mem_restRefs_of Cert.KernelIdeal.main_arg2 (by decide) (by decide))).trans
        (Cert.KernelIdeal.Gen.W_main_arg2 m (Cert.KernelIdeal.Body.dats m) c)
  · refine (θ_run Cert.ReferenceIdeal.defs _ _).mono (fun r h c => ⟨(h c).1.trans ?_, (h c).2.1.trans ?_, (h c).2.2⟩)
      (Cert.ReferenceIdeal.Value.run (F := Ideal) m' ρ')
    · show Cert.ReferenceIdeal.Read.val_main_v20 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          = lossOf (nearestGt (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (nearestPred (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (m ((c.tc : Thread Cert.KernelIdeal.nD Cert.KernelIdeal.τ).loc Cert.KernelIdeal.main_arg2))
      rw [(hagree c).1, (hagree c).2.1, (hagree c).2.2, ref_loss,
        Cert.Chamfer.Ref.ref_nearestGt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.Chamfer.Finite.arg0_real m hpre c) (Cert.Chamfer.Finite.arg1_real m hpre c),
        Cert.Chamfer.Ref.ref_nearestPred (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.Chamfer.Finite.arg0_real m hpre c) (Cert.Chamfer.Finite.arg1_real m hpre c)]
    · show Cert.ReferenceIdeal.Read.val_main_v17 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          = maskedOf (nearestGt (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (m ((c.tc : Thread Cert.KernelIdeal.nD Cert.KernelIdeal.τ).loc Cert.KernelIdeal.main_arg2))
      rw [(hagree c).1, (hagree c).2.1, (hagree c).2.2, ref_masked,
        Cert.Chamfer.Ref.ref_nearestGt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.Chamfer.Finite.arg0_real m hpre c) (Cert.Chamfer.Finite.arg1_real m hpre c)]

/-- The kernel program's row table is the specification's once its first output array is, entry by entry. -/
theorem rows_table (m : (ℓ : Loc Cert.KernelIdeal.nD Cert.KernelIdeal.τ Cert.KernelIdeal.sig) → Buf (Elt Ideal) ℓ) (c : Dev Cert.KernelIdeal.nD)
    (h : (Cert.KernelIdeal.Body.dats m 0 c).arrAt 2 Cert.KernelIdeal.cfg0.N
      = fun j : Cert.KernelIdeal.S2x1x8192.Idx => nearestGt (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (ix2 (j 0) (j 2))) :
    shapeCast Cert.KernelIdeal.S2x8192 ((Cert.KernelIdeal.Body.dats m 0 c).arrAt 2 Cert.KernelIdeal.cfg0.N) Cert.KernelIdeal.Gen.shapeCasts_S2x1x8192_S2x8192 = nearestGt (m ((c.tc : Thread Cert.KernelIdeal.nD Cert.KernelIdeal.τ).loc Cert.KernelIdeal.main_arg1)) (m ((c.tc : Thread Cert.KernelIdeal.nD Cert.KernelIdeal.τ).loc Cert.KernelIdeal.main_arg0)) := by
  funext j
  obtain ⟨b, q, rfl⟩ : ∃ (b : Fin 2) (q : Fin 8192), j = ix2 b q := ⟨j 0, j 1, eq_ix2 j⟩
  rw [reshape_apply, h]

/-- And its column table once its second output array is. -/
theorem cols_table (m : (ℓ : Loc Cert.KernelIdeal.nD Cert.KernelIdeal.τ Cert.KernelIdeal.sig) → Buf (Elt Ideal) ℓ) (c : Dev Cert.KernelIdeal.nD)
    (h : (Cert.KernelIdeal.Body.dats m 0 c).arrAt 3 Cert.KernelIdeal.cfg0.N
      = fun j : Cert.KernelIdeal.S2x1x8192.Idx => nearestPred (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (ix2 (j 0) (j 2))) :
    shapeCast Cert.KernelIdeal.S2x8192 ((Cert.KernelIdeal.Body.dats m 0 c).arrAt 3 Cert.KernelIdeal.cfg0.N) Cert.KernelIdeal.Gen.shapeCasts_S2x1x8192_S2x8192 = nearestPred (m ((c.tc : Thread Cert.KernelIdeal.nD Cert.KernelIdeal.τ).loc Cert.KernelIdeal.main_arg1)) (m ((c.tc : Thread Cert.KernelIdeal.nD Cert.KernelIdeal.τ).loc Cert.KernelIdeal.main_arg0)) := by
  funext j
  obtain ⟨b, p, rfl⟩ : ∃ (b : Fin 2) (p : Fin 8192), j = ix2 b p := ⟨j 0, j 1, eq_ix2 j⟩
  rw [reshape_apply, h]

/-- The equivalence, from the region's two output arrays holding the two nearest-neighbour tables. -/
theorem algebraic_of
    (hrows : ∀ (m : (ℓ : Loc Cert.KernelIdeal.nD Cert.KernelIdeal.τ Cert.KernelIdeal.sig) → Buf (Elt Ideal) ℓ) (c : Dev Cert.KernelIdeal.nD), (Cert.KernelIdeal.Body.dats m 0 c).arrAt 2 Cert.KernelIdeal.cfg0.N
      = fun j : Cert.KernelIdeal.S2x1x8192.Idx => nearestGt (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (ix2 (j 0) (j 2)))
    (hcols : ∀ (m : (ℓ : Loc Cert.KernelIdeal.nD Cert.KernelIdeal.τ Cert.KernelIdeal.sig) → Buf (Elt Ideal) ℓ) (c : Dev Cert.KernelIdeal.nD), (Cert.KernelIdeal.Body.dats m 0 c).arrAt 3 Cert.KernelIdeal.cfg0.N
      = fun j : Cert.KernelIdeal.S2x1x8192.Idx => nearestPred (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (ix2 (j 0) (j 2))) :
    Cert.algebraic_KernelIdeal_ReferenceIdeal :=
  algebraic_of_tables (fun m c => rows_table m c (hrows m c)) (fun m c => cols_table m c (hcols m c))

/-- All five claims together, under the witnesses of the programs' stated side conditions, from the same two hypotheses. -/
theorem claim_of
    (hrows : ∀ (m : (ℓ : Loc Cert.KernelIdeal.nD Cert.KernelIdeal.τ Cert.KernelIdeal.sig) → Buf (Elt Ideal) ℓ) (c : Dev Cert.KernelIdeal.nD), (Cert.KernelIdeal.Body.dats m 0 c).arrAt 2 Cert.KernelIdeal.cfg0.N
      = fun j : Cert.KernelIdeal.S2x1x8192.Idx => nearestGt (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (ix2 (j 0) (j 2)))
    (hcols : ∀ (m : (ℓ : Loc Cert.KernelIdeal.nD Cert.KernelIdeal.τ Cert.KernelIdeal.sig) → Buf (Elt Ideal) ℓ) (c : Dev Cert.KernelIdeal.nD), (Cert.KernelIdeal.Body.dats m 0 c).arrAt 3 Cert.KernelIdeal.cfg0.N
      = fun j : Cert.KernelIdeal.S2x1x8192.Idx => nearestPred (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (ix2 (j 0) (j 2))) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of hrows hcols⟩

end Cert.Proof.Claims

end
-- ==== Proof.Accum.lean ====
/-
  The running minima, as recursions on the grid point — pure mathematics, no program.

  The grid has 64 points `t`, visited in order; point `t` is batch entry `t / 32`, row tile `t / 8 % 4` (2048 rows of
  the distance table) and column tile `t % 8` (1024 columns).  `D b q p` is any table of extended reals indexed by batch
  entry, row and column.  At a point the tile's row minima (`rowChunk`, one per row of the tile: the infimum over the
  tile's 1024 columns) and column minima (`colChunk`, one per column of the tile: the infimum over the tile's 2048 rows)
  are folded into two running blocks:
  * `rowAcc`: 2048 entries, reset to `+∞` at the first column tile of a row of tiles, then `min`-ed with the row minima;
  * `colAcc`: 8192 entries, reset to `+∞` at the first point of a batch entry; at each point only the 1024 entries of
    the point's column tile are `min`-ed with the column minima, the others are kept.
-/
import Mathlib.Data.EReal.Basic
import Mathlib.Order.CompleteLattice.Basic

noncomputable section

namespace Cert.Chamfer

/-- Batch entry of grid point `t`. -/
def bOf (t : Fin 64) : Fin 2 := ⟨t.val / 32, by have := t.isLt; omega⟩
/-- Row tile of grid point `t`. -/
def qOf (t : Fin 64) : Fin 4 := ⟨t.val / 8 % 4, by omega⟩
/-- Column tile of grid point `t`. -/
def pOf (t : Fin 64) : Fin 8 := ⟨t.val % 8, by omega⟩

/-- Row `r` of row tile `k`. -/
def rowIx (k : Fin 4) (r : Fin 2048) : Fin 8192 := ⟨2048 * k.val + r.val, by have := k.isLt; have := r.isLt; omega⟩
/-- Column `s` of column tile `k`. -/
def colIx (k : Fin 8) (s : Fin 1024) : Fin 8192 := ⟨1024 * k.val + s.val, by have := k.isLt; have := s.isLt; omega⟩

variable (D : Fin 2 → Fin 8192 → Fin 8192 → EReal)

/-- The minimum of row `r` of the tile of point `t` over the tile's columns. -/
def rowChunk (t : Fin 64) (r : Fin 2048) : EReal := ⨅ s : Fin 1024, D (bOf t) (rowIx (qOf t) r) (colIx (pOf t) s)
/-- The minimum of column `s` of the tile of point `t` over the tile's rows. -/
def colChunk (t : Fin 64) (s : Fin 1024) : EReal := ⨅ r : Fin 2048, D (bOf t) (rowIx (qOf t) r) (colIx (pOf t) s)

/-- The running row minima after point `n`. -/
def rowAcc : (n : ℕ) → n < 64 → Fin 2048 → EReal
  | 0, h => fun r => min ⊤ (rowChunk D ⟨0, h⟩ r)
  | n + 1, h => fun r =>
      if (n + 1) % 8 = 0 then min ⊤ (rowChunk D ⟨n + 1, h⟩ r)
      else min (rowAcc n (Nat.lt_of_succ_lt h) r) (rowChunk D ⟨n + 1, h⟩ r)

/-- One point's update of the running column minima: entries of the point's column tile are `min`-ed with the tile's
    column minima, the others kept. -/
def colStep (t : Fin 64) (old : Fin 8192 → EReal) : Fin 8192 → EReal := fun p =>
  if h : 1024 * (pOf t).val ≤ p.val ∧ p.val < 1024 * (pOf t).val + 1024 then
    min (old p) (colChunk D t ⟨p.val - 1024 * (pOf t).val, by omega⟩)
  else old p

/-- The running column minima after point `n`. -/
def colAcc : (n : ℕ) → n < 64 → Fin 8192 → EReal
  | 0, h => colStep D ⟨0, h⟩ (fun _ => ⊤)
  | n + 1, h =>
      if (n + 1) % 32 = 0 then colStep D ⟨n + 1, h⟩ (fun _ => ⊤)
      else colStep D ⟨n + 1, h⟩ (colAcc n (Nat.lt_of_succ_lt h))

end Cert.Chamfer

end
-- ==== Proof.BlocksIdeal.lean ====
/-
  The two input blocks of a grid point, read at an index in terms of the argument arrays.

  The grid has 64 points `t`, point `t` being batch entry `t / 32`, row tile `t / 8 % 4` and column tile `t % 8`.
  The first input block of point `t` is the 2048 × 3 block of rows `2048 * (t / 8 % 4) + r` of batch entry `t / 32` of
  the second argument array; the second input block is the 3 × 1024 block of columns `1024 * (t % 8) + s` of the same
  batch entry of the TRANSPOSE of the first argument array (each 8192 × 3 matrix turned into a 3 × 8192 one before the
  grid is entered). A block's coordinate on an axis is always (block index) × (block size) + (coordinate inside the
  block), and the block indices of point `t` are those three numbers (or 0 on an axis the block spans whole).
-/
import proofs.«102794_j51427938402462_2_alg».proof.Proof.Gen.KernelIdeal.Frame
import proofs.«102794_j51427938402462_2_alg».proof.Proof.Accum
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Chamfer.Blocks

open Idealize.ShloMosaic Idealize.ShloMosaic.TcCoe Idealize.ShloMosaic.ValueIdx
open Idealize.SL Idealize.SL.Sem
open Cert.KernelIdeal Cert.KernelIdeal.Gen

variable {F : FTy → Type} [FloatOps F]

/-- The grid has 64 points. -/
theorem N64 : cfg0.N = 64 := N_0

/-- A grid point as a number below 64. -/
def tOf (t : Fin cfg0.N) : Fin 64 := ⟨t.val, N64 ▸ t.isLt⟩

/-- The cast keeps the number. -/
theorem tOf_val (t : Fin cfg0.N) : (tOf t).val = t.val := rfl

/-- The block of the second argument array at point `t`: batch entry `t / 32`, row tile `t / 8 % 4`, all three
    coordinates of a row. -/
theorem index_arg1 : ∀ t : Fin cfg0.N, win0_0.index t (0 : Fin 3) = t.val / 32 ∧ win0_0.index t (1 : Fin 3) = t.val / 8 % 4
    ∧ win0_0.index t (2 : Fin 3) = 0 :=
  (by decide +kernel : ∀ t : Fin grid0.N, _)

/-- The block of the transposed first argument array at point `t`: batch entry `t / 32`, all three coordinate rows,
    column tile `t % 8`. -/
theorem index_v0 : ∀ t : Fin cfg0.N, win0_1.index t (0 : Fin 3) = t.val / 32 ∧ win0_1.index t (1 : Fin 3) = 0
    ∧ win0_1.index t (2 : Fin 3) = t.val % 8 :=
  (by decide +kernel : ∀ t : Fin grid0.N, _)

/-- What the grid finds in the transposed array: the first argument array with its last two axes exchanged. -/
theorem v0_eq (m : (ℓ : Loc nD τ sig) → Buf (Elt F) ℓ) (c : Dev nD) :
    (V m c main_v0 : S2x3x8192.Idx → Elt F .f32)
      = transpose S2x3x8192 [0, 2, 1] (m ((c : Thread nD τ).loc main_arg0)) transposes_S2x8192x3_S2x3x8192_0_2_1 := by
  show StableHlo.after hostOps0 (fun b => m (c, b)) (Proc.devRef .tc main_v0) = _
  after_results

/-- The transposed array at `(b, d, p)` is the first argument array at `(b, p, d)`. -/
theorem v0_apply (m : (ℓ : Loc nD τ sig) → Buf (Elt F) ℓ) (c : Dev nD) (b : Fin 2) (d : Fin 3) (p : Fin 8192) :
    V m c main_v0 (ix3 b d p) = m ((c : Thread nD τ).loc main_arg0) (ix3 b p d) :=
  (congrFun (v0_eq m c) (ix3 b d p)).trans (transpose_ix3_021_apply _ _ b d p)

/-- The first input block of point `t` at `(0, r, d)`: coordinate `d` of row `r` of the point's row tile, in the
    point's batch entry of the second argument array. -/
theorem iblk0_apply (m : (ℓ : Loc nD τ sig) → Buf (Elt F) ℓ) (c : Dev nD) (t : Fin cfg0.N) (r : Fin 2048) (d : Fin 3) :
    iblk m c 0 t (ix3 (0 : Fin 1) r d)
      = m ((c : Thread nD τ).loc main_arg1) (ix3 (bOf (tOf t)) (rowIx (qOf (tOf t)) r) d) := by
  unfold iblk
  show V m c main_arg1 (((cfg0.win 0).blk t).view.emb (ix3 (0 : Fin 1) r d)) = _
  rw [V_main_arg1]
  refine congrArg _ ?_
  obtain ⟨e0, e1, e2⟩ := index_arg1 t
  have hr : r.val < 2048 := r.isLt
  have hd : d.val < 3 := d.isLt
  have ht : t.val < 64 := (tOf t).isLt
  funext a; apply Fin.ext
  match a with
  | ⟨0, _⟩ => show win0_0.index t (0 : Fin 3) * 1 + 1 * 0 = t.val / 32; omega
  | ⟨1, _⟩ => show win0_0.index t (1 : Fin 3) * 2048 + 1 * r.val = 2048 * (t.val / 8 % 4) + r.val; omega
  | ⟨2, _⟩ => show win0_0.index t (2 : Fin 3) * 3 + 1 * d.val = d.val; omega

/-- The second input block of point `t` at `(0, d, s)`, in the transposed array: coordinate row `d`, column `s` of the
    point's column tile, in the point's batch entry. -/
theorem iblk1_eq_v0 (m : (ℓ : Loc nD τ sig) → Buf (Elt F) ℓ) (c : Dev nD) (t : Fin cfg0.N) (d : Fin 3) (s : Fin 1024) :
    iblk m c 1 t (ix3 (0 : Fin 1) d s)
      = V m c main_v0 (ix3 (bOf (tOf t)) d (colIx (pOf (tOf t)) s)) := by
  unfold iblk
  show V m c main_v0 (((cfg0.win 1).blk t).view.emb (ix3 (0 : Fin 1) d s)) = _
  refine congrArg _ ?_
  obtain ⟨e0, e1, e2⟩ := index_v0 t
  have hs : s.val < 1024 := s.isLt
  have hd : d.val < 3 := d.isLt
  have ht : t.val < 64 := (tOf t).isLt
  funext a; apply Fin.ext
  match a with
  | ⟨0, _⟩ => show win0_1.index t (0 : Fin 3) * 1 + 1 * 0 = t.val / 32; omega
  | ⟨1, _⟩ => show win0_1.index t (1 : Fin 3) * 3 + 1 * d.val = d.val; omega
  | ⟨2, _⟩ => show win0_1.index t (2 : Fin 3) * 1024 + 1 * s.val = 1024 * (t.val % 8) + s.val; omega

/-- The second input block of point `t` at `(0, d, s)`, in the first argument array itself: coordinate `d` of row `s`
    of the point's column tile, in the point's batch entry. -/
theorem iblk1_apply (m : (ℓ : Loc nD τ sig) → Buf (Elt F) ℓ) (c : Dev nD) (t : Fin cfg0.N) (d : Fin 3) (s : Fin 1024) :
    iblk m c 1 t (ix3 (0 : Fin 1) d s)
      = m ((c : Thread nD τ).loc main_arg0) (ix3 (bOf (tOf t)) (colIx (pOf (tOf t)) s) d) :=
  (iblk1_eq_v0 m c t d s).trans (v0_apply m c _ d _)

end Cert.Chamfer.Blocks

end
-- ==== Proof.ArraysIdeal.lean ====
/-
  From the blocks written back to the two final arrays.

  Both result arrays have shape [2, 1, 8192]. The array of row minima is written back in blocks of 2048 entries: the
  block of point `t` is entries `2048 * (t / 8 % 4) + r` of batch entry `t / 32`, and it is written back at the last
  column tile of its row of tiles (`t % 8 = 7`). The array of column minima is written back one whole batch entry at a
  time, at the last point of the batch entry (`t % 32 = 31`). If at each writing point the block written agrees, entry
  by entry, with a table `R` (resp. `C`) read at the block's place in the array, then the array ends equal to that
  table: every index `(b, 0, q)` lies in the block of exactly such a point — `32 * b + 8 * (q / 2048) + 7` for the row
  minima, `32 * b + 31` for the column minima.
-/
import proofs.«102794_j51427938402462_2_alg».proof.Proof.FrameIdeal
import proofs.«102794_j51427938402462_2_alg».proof.Proof.BlocksIdeal
import Idealize.ShloMosaic.Lib.Pipeline.Value
import Idealize.ShloMosaic.Lib.ValueIdx

set_option maxRecDepth 16384

noncomputable section

namespace Cert.Chamfer.Arrays

open Idealize.ShloMosaic Idealize.ShloMosaic.TcCoe Idealize.ShloMosaic.ValueIdx
open Idealize.SL Idealize.SL.Sem
open Cert.KernelIdeal Cert.KernelIdeal.Gen Cert.KernelIdeal.Body Cert.Chamfer Cert.Chamfer.Blocks

variable {F : FTy → Type} [FloatOps F]

/-- The block of the array of row minima at point `t`: batch entry `t / 32`, row tile `t / 8 % 4`. -/
theorem index_rows : ∀ t : Fin cfg0.N, win0_2.index t (0 : Fin 3) = t.val / 32 ∧ win0_2.index t (1 : Fin 3) = 0
    ∧ win0_2.index t (2 : Fin 3) = t.val / 8 % 4 :=
  (by decide +kernel : ∀ t : Fin grid0.N, _)

/-- The block of the array of column minima at point `t`: the whole batch entry `t / 32`. -/
theorem index_cols : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- What a writing point writes to the array of row minima is its block of the table `R`. -/
theorem flushed_rows (m : (ℓ : Loc nD τ sig) → Buf (Elt F) ℓ) (c : Dev nD) (R : (⟨2, ![2, 8192]⟩ : Shape).Idx → Elt F .f32)
    (h : ∀ t : Fin cfg0.N, t.val % 8 = 7 → ∀ r : Fin 2048,
      (dats m 0 c).after 2 t (ix3 (0 : Fin 1) (0 : Fin 1) r) = R (ix2 (bOf (tOf t)) (rowIx (qOf (tOf t)) r)))
    (t : Fin cfg0.N) (hf : (cfg0.win 2).flush t = true) :
    (dats m 0 c).flushed 2 t = ((cfg0.win 2).blk t).view.read (Elt F) (fun j : S2x1x8192.Idx => R (ix2 (j 0) (j 2))) := by
  have ht7 : t.val % 8 = 7 := (flush0_2 t).mp hf
  have key : ∀ y : S1x1x2048.Idx, (dats m 0 c).after 2 t y
      = R (ix2 ((((cfg0.win 2).blk t).view.emb y) 0) ((((cfg0.win 2).blk t).view.emb y) 2)) := by
    intro y
    obtain ⟨a, b, r, rfl⟩ : ∃ a b r, y = ix3 a b r := ⟨_, _, _, eq_ix3 y⟩
    obtain rfl : a = 0 := Subsingleton.elim _ _
    obtain rfl : b = 0 := Subsingleton.elim _ _
    rw [h t ht7 r]
    refine congrArg R ?_
    obtain ⟨e0, e1, e2⟩ := index_rows t
    have hr : r.val < 2048 := r.isLt
    have ht : t.val < 64 := (tOf t).isLt
    funext a
    match a with
    | ⟨0, _⟩ => apply Fin.ext; show t.val / 32 = win0_2.index t (0 : Fin 3) * 1 + 1 * 0; omega
    | ⟨1, _⟩ => apply Fin.ext; show 2048 * (t.val / 8 % 4) + r.val = win0_2.index t (2 : Fin 3) * 2048 + 1 * r.val; omega
  show (cfg0.win 2).cut (grid0.coords t) ((dats m 0 c).after 2 t) = _
  funext y
  exact key y

/-- Every index of the array of row minima lies in the block of a writing point: `(b, 0, q)` in that of point
    `32 * b + 8 * (q / 2048) + 7`. -/
theorem cover_rows (i : S2x1x8192.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 8192 := (i 2).isLt
  obtain ⟨t, ht⟩ : ∃ t : Fin cfg0.N, t.val = 32 * (i 0).val + 8 * ((i 2).val / 2048) + 7 :=
    ⟨⟨32 * (i 0).val + 8 * ((i 2).val / 2048) + 7, by rw [N64]; omega⟩, rfl⟩
  refine ⟨t, (flush0_2 t).mpr (by omega), ?_⟩
  show i ∈ ((View.whole main_v1_0).slice (win0_2.rect t)).set
  rw [View.set_slice_whole, Rect.mem_set_unit]
  obtain ⟨e0, e1, e2⟩ := index_rows t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 2048 ≤ (i 2).val ∧ (i 2).val < win0_2.index t (2 : Fin 3) * 2048 + 2048; omega

/-- The array of row minima ends equal to the table `R`, once every writing point's block agrees with it. -/
theorem final_rows (m : (ℓ : Loc nD τ sig) → Buf (Elt F) ℓ) (c : Dev nD) (R : (⟨2, ![2, 8192]⟩ : Shape).Idx → Elt F .f32)
    (h : ∀ t : Fin cfg0.N, t.val % 8 = 7 → ∀ r : Fin 2048,
      (dats m 0 c).after 2 t (ix3 (0 : Fin 1) (0 : Fin 1) r) = R (ix2 (bOf (tOf t)) (rowIx (qOf (tOf t)) r))) :
    (dats m 0 c).arrAt 2 cfg0.N = fun j : S2x1x8192.Idx => R (ix2 (j 0) (j 2)) :=
  (dats m 0 c).arrAt_eq_of_cover 2 (fun j : S2x1x8192.Idx => R (ix2 (j 0) (j 2))) (flushed_rows m c R h) cover_rows

/-- What a writing point writes to the array of column minima is its batch entry of the table `C`. -/
theorem flushed_cols (m : (ℓ : Loc nD τ sig) → Buf (Elt F) ℓ) (c : Dev nD) (C : (⟨2, ![2, 8192]⟩ : Shape).Idx → Elt F .f32)
    (h : ∀ t : Fin cfg0.N, t.val % 32 = 31 → ∀ p : Fin 8192,
      (dats m 0 c).after 3 t (ix3 (0 : Fin 1) (0 : Fin 1) p) = C (ix2 (bOf (tOf t)) p))
    (t : Fin cfg0.N) (hf : (cfg0.win 3).flush t = true) :
    (dats m 0 c).flushed 3 t = ((cfg0.win 3).blk t).view.read (Elt F) (fun j : S2x1x8192.Idx => C (ix2 (j 0) (j 2))) := by
  have ht31 : t.val % 32 = 31 := (flush0_3 t).mp hf
  have key : ∀ y : S1x1x8192.Idx, (dats m 0 c).after 3 t y
      = C (ix2 ((((cfg0.win 3).blk t).view.emb y) 0) ((((cfg0.win 3).blk t).view.emb y) 2)) := by
    intro y
    obtain ⟨a, b, p, rfl⟩ : ∃ a b p, y = ix3 a b p := ⟨_, _, _, eq_ix3 y⟩
    obtain rfl : a = 0 := Subsingleton.elim _ _
    obtain rfl : b = 0 := Subsingleton.elim _ _
    rw [h t ht31 p]
    refine congrArg C ?_
    obtain ⟨e0, e1, e2⟩ := index_cols t
    have hp : p.val < 8192 := p.isLt
    have ht : t.val < 64 := (tOf t).isLt
    funext a
    match a with
    | ⟨0, _⟩ => apply Fin.ext; show t.val / 32 = win0_3.index t (0 : Fin 3) * 1 + 1 * 0; omega
    | ⟨1, _⟩ => apply Fin.ext; show p.val = win0_3.index t (2 : Fin 3) * 8192 + 1 * p.val; omega
  show (cfg0.win 3).cut (grid0.coords t) ((dats m 0 c).after 3 t) = _
  funext y
  exact key y

/-- Every index of the array of column minima lies in the block of a writing point: `(b, 0, p)` in that of point
    `32 * b + 31`. -/
theorem cover_cols (i : S2x1x8192.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 8192 := (i 2).isLt
  obtain ⟨t, ht⟩ : ∃ t : Fin cfg0.N, t.val = 32 * (i 0).val + 31 :=
    ⟨⟨32 * (i 0).val + 31, by rw [N64]; omega⟩, rfl⟩
  refine ⟨t, (flush0_3 t).mpr (by omega), ?_⟩
  show i ∈ ((View.whole main_v1_1).slice (win0_3.rect t)).set
  rw [View.set_slice_whole, Rect.mem_set_unit]
  obtain ⟨e0, e1, e2⟩ := index_cols t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- The array of column minima ends equal to the table `C`, once every writing point's block agrees with it. -/
theorem final_cols (m : (ℓ : Loc nD τ sig) → Buf (Elt F) ℓ) (c : Dev nD) (C : (⟨2, ![2, 8192]⟩ : Shape).Idx → Elt F .f32)
    (h : ∀ t : Fin cfg0.N, t.val % 32 = 31 → ∀ p : Fin 8192,
      (dats m 0 c).after 3 t (ix3 (0 : Fin 1) (0 : Fin 1) p) = C (ix2 (bOf (tOf t)) p)) :
    (dats m 0 c).arrAt 3 cfg0.N = fun j : S2x1x8192.Idx => C (ix2 (j 0) (j 2)) :=
  (dats m 0 c).arrAt_eq_of_cover 3 (fun j : S2x1x8192.Idx => C (ix2 (j 0) (j 2))) (flushed_cols m c C h) cover_cols

end Cert.Chamfer.Arrays
end
-- ==== Proof.OutsIdeal.lean ====
/-
  What each case of the body leaves in the two running blocks, in terms of the body's pure payloads.

  The row block is always overwritten whole by `k0_pay5` (the block's earlier contents `min`-ed with the tile's row
  minima), the earlier contents being `+∞` (`k0_pay3`) where the case resets the block first.  The column block is
  overwritten only on the 1024 entries of the point's column tile, by `k0_pay1` (those entries' earlier contents
  `min`-ed with the tile's column minima); every other entry keeps its earlier contents, which are `+∞` (`k0_pay2`)
  where the case resets the block first.
-/
import proofs.«102794_j51427938402462_2_alg».proof.Proof.FrameIdeal
import proofs.«102794_j51427938402462_2_alg».proof.Proof.BlocksIdeal
import Idealize.ShloMosaic.Lib.Pipeline.Value
import Idealize.ShloMosaic.Lib.WritesUnit
import Idealize.ShloMosaic.Lib.ValueIdx

set_option maxRecDepth 16384

noncomputable section

namespace Cert.Chamfer.Outs

open Cert.KernelIdeal Cert.KernelIdeal.Gen Cert.KernelIdeal.Body
open Idealize.ShloMosaic Idealize.ShloMosaic.Tactic Idealize.ShloMosaic.ValueIdx Idealize.SL.Sem
open Cert.Chamfer Cert.Chamfer.Blocks

variable {F : FTy → Type} [FloatOps F]

theorem hz3 : (![0, 0, 0] : Fin 3 → Nat) = fun _ => 0 := funext fun a => by fin_cases a <;> rfl

/-! ## The row block -/

theorem row_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x3x1024 .f32) (xo2 : Vec F S1x1x2048 .f32) (xo3 : Vec F S1x1x8192 .f32) :
    out0_B_2 c i arg3 harg3 arg4 harg4 arg5 harg5 arg6 harg6 hc0 hc1 x0 x1 xo2 xo3 = k0_pay5 x0 x1 xo2 := by
  unfold out0_B_2
  rw [View.read_writes_eq_canon _ _ _ (cover0_B_2 c i arg3 harg3 arg4 harg4 arg5 harg5 arg6 harg6 hc0 hc1 x0 x1 xo2 xo3)]
  unfold kernelRun0_B
  dsimp only
  sl_unfold_words
  rw [View.canon_unit_zero hz3]
  simp only [View.readAt_eq_ld, harg3.read_unread, harg4.read_unread, harg5.read_unread,
    View.ld_unit_zero (S := S1x2048x3) hz3, View.ld_unit_zero (S := S1x3x1024) hz3, View.ld_unit_zero (S := S1x1x2048) hz3]

theorem row_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (x0 : Vec F S1x2048x3 .f32) (x1 : Vec F S1x3x1024 .f32) :
    out0_A_2 c i arg3 harg3 arg4 harg4 arg5 harg5 arg6 harg6 hc0 hc1 x0 x1 = k0_pay5 x0 x1 (k0_pay3 (F := F)) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_cons_unit_zero (S := S1x1x2048) hz3, View.readCov_unit_zero (S := S1x1x2048) _ hz3]
  simp only [View.readAt_eq_ld, harg3.read_unread, harg4.read_unread,
    View.ld_unit_zero (S := S1x2048x3) hz3, View.ld_unit_zero (S := S1x3x1024) hz3]

theorem row_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : cond0_1 i) (x0 : Vec F S1x2048x3 .f32) (x1 : Vec F S1x3x1024 .f32) (xo3 : Vec F S1x1x8192 .f32) :
    out0_C_2 c i arg3 harg3 arg4 harg4 arg5 harg5 arg6 harg6 hc0 hc1 x0 x1 xo3 = k0_pay5 x0 x1 (k0_pay3 (F := F)) := by
  unfold out0_C_2
  rw [View.read_writes_eq_canon _ _ _ (cover0_C_2 c i arg3 harg3 arg4 harg4 arg5 harg5 arg6 harg6 hc0 hc1 x0 x1 xo3)]
  unfold kernelRun0_C
  dsimp only
  sl_unfold_words
  rw [View.canon_cons_unit_zero (S := S1x1x2048) hz3, View.readCov_unit_zero (S := S1x1x2048) _ hz3]
  simp only [View.readAt_eq_ld, harg3.read_unread, harg4.read_unread,
    View.ld_unit_zero (S := S1x2048x3) hz3, View.ld_unit_zero (S := S1x3x1024) hz3]

/-! ## The column block -/

/-- The slice the body updates at point `t` starts at entry `1024 · (t mod 8)`. -/
theorem off_eq : ∀ t : Fin cfg0.N, k0_off1 (grid0.coords t) = ![0, 0, 1024 * (t.val % 8)] :=
  (by decide +kernel : ∀ t : Fin grid0.N, k0_off1 (grid0.coords t) = ![0, 0, 1024 * (t.val % 8)])

/-- Entry `s` of the slice is entry `colIx (pOf t) s` of the block. -/
theorem slice_ix (t : Fin cfg0.N) (s : Fin 1024) (a : Fin 3) :
    ((ix3 (0 : Fin 1) (0 : Fin 1) (colIx (pOf (tOf t)) s) : S1x1x8192.Idx) a).val
      = (![0, 0, 1024 * (t.val % 8)] : Fin 3 → ℕ) a + ((ix3 (0 : Fin 1) (0 : Fin 1) s : S1x1x1024.Idx) a).val := by
  match a with
  | ⟨0, _⟩ => rfl
  | ⟨1, _⟩ => rfl
  | ⟨2, _⟩ => rfl

/-- Reading the carried block through the slice's rectangle: entry `s` of what is read is entry `colIx (pOf t) s`. -/
theorem ld_slice (t : Fin cfg0.N) (X : S1x1x8192.Idx → Elt F .f32) (s : Fin 1024) :
    View.ld X (Rect.unit (s := S1x1x8192) (k0_off1 (grid0.coords t)) S1x1x1024.size (k0_off1_inb (grid0.coords t))) (ix3 (0 : Fin 1) (0 : Fin 1) s)
      = X (ix3 (0 : Fin 1) (0 : Fin 1) (colIx (pOf (tOf t)) s)) := by
  show X _ = X _
  refine congrArg X (funext fun a => Fin.ext ?_)
  have h2 := congrFun (off_eq t) a
  show k0_off1 (grid0.coords t) a + 1 * ((ix3 (0 : Fin 1) (0 : Fin 1) s : S1x1x1024.Idx) a).val = _
  rw [h2, slice_ix t s a]; omega

theorem col_B_in (c : Dev nD) (t : Fin cfg0.N) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 (grid0.coords t)) (hc1 : ¬cond0_1 (grid0.coords t)) (x0 : Vec F S1x2048x3 .f32) (x1 : Vec F S1x3x1024 .f32) (xo2 : Vec F S1x1x2048 .f32) (xo3 : Vec F S1x1x8192 .f32) :
    ∃ v45 : Vec F S1x1x1024 .f32, (∀ s : Fin 1024, v45 (ix3 (0 : Fin 1) (0 : Fin 1) s) = xo3 (ix3 (0 : Fin 1) (0 : Fin 1) (colIx (pOf (tOf t)) s))) ∧
      ∀ s : Fin 1024, out0_B_3 c (grid0.coords t) arg3 harg3 arg4 harg4 arg5 harg5 arg6 harg6 hc0 hc1 x0 x1 xo2 xo3 (ix3 (0 : Fin 1) (0 : Fin 1) (colIx (pOf (tOf t)) s))
        = k0_pay1 (k0_pay4 x0 x1) v45 (ix3 (0 : Fin 1) (0 : Fin 1) s) := by
  unfold out0_B_3
  unfold kernelRun0_B
  dsimp only
  sl_unfold_words
  simp only [View.readAt_eq_ld, harg3.read_unread, harg4.read_unread, harg6.read_unread,
    View.ld_unit_zero (S := S1x2048x3) hz3, View.ld_unit_zero (S := S1x3x1024) hz3]
  refine ⟨?v, ?h1, ?h2⟩
  case h2 =>
    intro s
    refine View.read_writes_cons_unit_of_mem (s := S1x1x8192) _ _ _ _ _ _ (ix3 (0 : Fin 1) (0 : Fin 1) s) (off_eq t) ?_
    exact slice_ix t s
  case h1 =>
    intro s
    exact ld_slice t xo3 s

theorem col_B_out (c : Dev nD) (t : Fin cfg0.N) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 (grid0.coords t)) (hc1 : ¬cond0_1 (grid0.coords t)) (x0 : Vec F S1x2048x3 .f32) (x1 : Vec F S1x3x1024 .f32) (xo2 : Vec F S1x1x2048 .f32) (xo3 : Vec F S1x1x8192 .f32) (p : Fin 8192)
    (hp : p.val < 1024 * (t.val % 8) ∨ 1024 * (t.val % 8) + 1024 ≤ p.val) :
    out0_B_3 c (grid0.coords t) arg3 harg3 arg4 harg4 arg5 harg5 arg6 harg6 hc0 hc1 x0 x1 xo2 xo3 (ix3 (0 : Fin 1) (0 : Fin 1) p) = xo3 (ix3 (0 : Fin 1) (0 : Fin 1) p) := by
  unfold out0_B_3
  unfold kernelRun0_B
  dsimp only
  sl_unfold_words
  refine (View.read_writes_cons_unit_of_not_mem _ _ _ _ _ _ (off_eq t) (2 : Fin 3) hp).trans ?_
  rw [View.writes_nil, harg6.read_unread]

theorem col_C_in (c : Dev nD) (t : Fin cfg0.N) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 (grid0.coords t)) (hc1 : cond0_1 (grid0.coords t)) (x0 : Vec F S1x2048x3 .f32) (x1 : Vec F S1x3x1024 .f32) (xo3 : Vec F S1x1x8192 .f32) :
    ∃ v45 : Vec F S1x1x1024 .f32, (∀ s : Fin 1024, v45 (ix3 (0 : Fin 1) (0 : Fin 1) s) = xo3 (ix3 (0 : Fin 1) (0 : Fin 1) (colIx (pOf (tOf t)) s))) ∧
      ∀ s : Fin 1024, out0_C_3 c (grid0.coords t) arg3 harg3 arg4 harg4 arg5 harg5 arg6 harg6 hc0 hc1 x0 x1 xo3 (ix3 (0 : Fin 1) (0 : Fin 1) (colIx (pOf (tOf t)) s))
        = k0_pay1 (k0_pay4 x0 x1) v45 (ix3 (0 : Fin 1) (0 : Fin 1) s) := by
  unfold out0_C_3
  unfold kernelRun0_C
  dsimp only
  sl_unfold_words
  simp only [View.readAt_eq_ld, harg3.read_unread, harg4.read_unread, harg6.read_unread,
    View.ld_unit_zero (S := S1x2048x3) hz3, View.ld_unit_zero (S := S1x3x1024) hz3]
  refine ⟨?v, ?h1, ?h2⟩
  case h2 =>
    intro s
    refine View.read_writes_cons_unit_of_mem (s := S1x1x8192) _ _ _ _ _ _ (ix3 (0 : Fin 1) (0 : Fin 1) s) (off_eq t) ?_
    exact slice_ix t s
  case h1 =>
    intro s
    exact ld_slice t xo3 s

theorem col_C_out (c : Dev nD) (t : Fin cfg0.N) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 (grid0.coords t)) (hc1 : cond0_1 (grid0.coords t)) (x0 : Vec F S1x2048x3 .f32) (x1 : Vec F S1x3x1024 .f32) (xo3 : Vec F S1x1x8192 .f32) (p : Fin 8192)
    (hp : p.val < 1024 * (t.val % 8) ∨ 1024 * (t.val % 8) + 1024 ≤ p.val) :
    out0_C_3 c (grid0.coords t) arg3 harg3 arg4 harg4 arg5 harg5 arg6 harg6 hc0 hc1 x0 x1 xo3 (ix3 (0 : Fin 1) (0 : Fin 1) p) = xo3 (ix3 (0 : Fin 1) (0 : Fin 1) p) := by
  unfold out0_C_3
  unfold kernelRun0_C
  dsimp only
  sl_unfold_words
  refine (View.read_writes_cons_unit_of_not_mem _ _ _ _ _ _ (off_eq t) (2 : Fin 3) hp).trans ?_
  rw [View.writes_nil, harg6.read_unread]

theorem col_A_in (c : Dev nD) (t : Fin cfg0.N) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 (grid0.coords t)) (hc1 : cond0_1 (grid0.coords t)) (x0 : Vec F S1x2048x3 .f32) (x1 : Vec F S1x3x1024 .f32) :
    ∃ v45 : Vec F S1x1x1024 .f32, (∀ s : Fin 1024, v45 (ix3 (0 : Fin 1) (0 : Fin 1) s) = k0_pay2 (F := F) (ix3 (0 : Fin 1) (0 : Fin 1) (colIx (pOf (tOf t)) s))) ∧
      ∀ s : Fin 1024, out0_A_3 c (grid0.coords t) arg3 harg3 arg4 harg4 arg5 harg5 arg6 harg6 hc0 hc1 x0 x1 (ix3 (0 : Fin 1) (0 : Fin 1) (colIx (pOf (tOf t)) s))
        = k0_pay1 (k0_pay4 x0 x1) v45 (ix3 (0 : Fin 1) (0 : Fin 1) s) := by
  unfold out0_A_3
  unfold kernelRun0_A
  dsimp only
  sl_unfold_words
  simp only [View.readAt_eq_ld, harg3.read_unread, harg4.read_unread,
    View.ld_unit_zero (S := S1x2048x3) hz3, View.ld_unit_zero (S := S1x3x1024) hz3]
  refine ⟨?v, ?h1, ?h2⟩
  case h2 =>
    intro s
    refine View.read_writes_cons_unit_of_mem (s := S1x1x8192) _ _ _ _ _ _ (ix3 (0 : Fin 1) (0 : Fin 1) s) (off_eq t) ?_
    exact slice_ix t s
  case h1 =>
    intro s
    rw [View.read_writes_junk_eq_canon, View.canon_unit_zero (S := S1x1x8192) hz3]
    exact ld_slice t (k0_pay2 (F := F)) s

theorem col_A_out (c : Dev nD) (t : Fin cfg0.N) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 (grid0.coords t)) (hc1 : cond0_1 (grid0.coords t)) (x0 : Vec F S1x2048x3 .f32) (x1 : Vec F S1x3x1024 .f32) (p : Fin 8192)
    (hp : p.val < 1024 * (t.val % 8) ∨ 1024 * (t.val % 8) + 1024 ≤ p.val) :
    out0_A_3 c (grid0.coords t) arg3 harg3 arg4 harg4 arg5 harg5 arg6 harg6 hc0 hc1 x0 x1 (ix3 (0 : Fin 1) (0 : Fin 1) p) = k0_pay2 (F := F) (ix3 (0 : Fin 1) (0 : Fin 1) p) := by
  unfold out0_A_3
  unfold kernelRun0_A
  dsimp only
  sl_unfold_words
  refine (View.read_writes_cons_unit_of_not_mem _ _ _ _ _ _ (off_eq t) (2 : Fin 3) hp).trans ?_
  rw [View.read_writes_junk_eq_canon, View.canon_unit_zero hz3]

end Cert.Chamfer.Outs

end
-- ==== Proof.LibMinReduce.lean ====
/-
  A float `vector.multi_reduction <minimumf>` over ONE axis, read at the ideal values: at each reduced index it is the
  fold of `min`, from the accumulator's value, over that axis's coordinates of the source (the reduced index with the
  coordinate inserted, `Shape.Reduces.lift`). This is the `<minimumf>` companion of the library's
  `Ideal.multiReduction_maximumf_single`, for any shapes, axis and float format.
-/
import Idealize.ShloMosaic.PureOps.Ideal.Laws

namespace Idealize.ShloMosaic.Ideal

variable {φ : FTy}

/-- A float `vector.multi_reduction <minimumf>` over one axis, read at `Ideal`: the fold of `min` from the
    accumulator's value over that axis's coordinates (a row's or a column's minimum). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.PayIdeal.lean ====
/-
  The kernel body's payloads read at an index, at the ideal values.

  The tile of squared distances at `(r, s)` is the three squared coordinate differences of row `r` of the first block and
  column `s` of the second, added left to right; the row block update at `r` is the minimum of the old entry and the
  infimum of row `r` of the tile; the column slice update at `s` is the minimum of the old entry and the infimum of
  column `s` of the tile; the two reset payloads are `+∞` everywhere.  Each layout operation between the loaded blocks
  and these values (casts that add or drop unit axes, one-column and one-row slices, the broadcasts of a column and of a
  row over the tile, the transpose of a column into a row) reads one element of its operand, named here by coordinates.
-/
import proofs.«102794_j51427938402462_2_alg».proof.Proof.Gen.KernelIdeal.Skeleton
import proofs.«102794_j51427938402462_2_alg».proof.Proof.LibMinReduce
import proofs.«102794_j51427938402462_2_alg».proof.Proof.Spec
import Idealize.ShloMosaic.Lib.ValueIdx
import Idealize.ShloMosaic.Lib.ValueLayout
import Idealize.ShloMosaic.Lib.Pipeline.Value

noncomputable section

namespace Cert.Chamfer.Pay

open Cert.KernelIdeal Cert.KernelIdeal.Gen Idealize.ShloMosaic Idealize.ShloMosaic.ValueIdx

/-! ## Layout operations at coordinates -/

section Layout
variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector `[a]` cast to `[1, 1, a]` reads, at `(u, w, i)`, the vector at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp [hu, hw])

/-- A `[1, 1, a]` array cast to the vector `[a]` reads, at `i`, the array at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

end Layout

/-! ## The two minimum reductions of the tile -/

/-- Row `r` of a `[2048, 1024]` tile with column `k` inserted is `(r, k)`. -/
theorem lift_row (h : S2048x1024.Reduces [1] S2048) (r : Fin 2048) (k : Fin 1024) :
    h.lift (ix1 r) k = ix2 r k := by
  funext c
  match c with
  | ⟨0, _⟩ => exact Fin.ext rfl
  | ⟨1, _⟩ => exact Fin.ext rfl

/-- Column `s` of a `[2048, 1024]` tile with row `k` inserted is `(k, s)`. -/
theorem lift_col (h : S2048x1024.Reduces [0] S1024) (s : Fin 1024) (k : Fin 2048) :
    h.lift (ix1 s) k = ix2 k s := by
  funext c
  match c with
  | ⟨0, _⟩ => exact Fin.ext rfl
  | ⟨1, _⟩ => exact Fin.ext rfl

/-- The minimum reduction of the tile along its columns, started at `+∞`, is at `r` the infimum of row `r`. -/
theorem rowMin_apply (src : FVec Ideal S2048x1024 .f32) (h : S2048x1024.Reduces [1] S2048) (hφ : FKind.Formats .f32)
    (hacc : (0x7F800000#32 : BitVec 32) = FKind.minimumf.neutral .f32 hφ) (r : Fin 2048) :
    multiReduction (F := Ideal) .minimumf [1] S2048 src 0x7F800000#32 h hφ hacc (ix1 r)
      = ⨅ s : Fin 1024, src (ix2 r s) := by
  refine (Ideal.multiReduction_minimumf_single src _ h hφ hacc (ix1 r)).trans ?_
  show Finset.fold min (Ideal.ofBits .f32 0x7F800000#32) (src ∘ h.lift (ix1 r)) Finset.univ = _
  rw [ofBits_inf]
  refine (fold_min_top _).trans ?_
  refine iInf_congr fun s => ?_
  exact congrArg src (lift_row h r s)

/-- The minimum reduction of the tile along its rows, started at `+∞`, is at `s` the infimum of column `s`. -/
theorem colMin_apply (src : FVec Ideal S2048x1024 .f32) (h : S2048x1024.Reduces [0] S1024) (hφ : FKind.Formats .f32)
    (hacc : (0x7F800000#32 : BitVec 32) = FKind.minimumf.neutral .f32 hφ) (s : Fin 1024) :
    multiReduction (F := Ideal) .minimumf [0] S1024 src 0x7F800000#32 h hφ hacc (ix1 s)
      = ⨅ r : Fin 2048, src (ix2 r s) := by
  refine (Ideal.multiReduction_minimumf_single src _ h hφ hacc (ix1 s)).trans ?_
  show Finset.fold min (Ideal.ofBits .f32 0x7F800000#32) (src ∘ h.lift (ix1 s)) Finset.univ = _
  rw [ofBits_inf]
  refine (fold_min_top _).trans ?_
  refine iInf_congr fun r => ?_
  exact congrArg src (lift_col h s r)

/-! ## The tile of squared distances -/

/-- Coordinate `o` of the first block's rows, spread over the tile, reads at `(r, s)` the block at `(0, r, o)`. -/
theorem rowCoord_apply (v8 : Vec Ideal S1x2048x3 .f32) (o : ℕ) (ho : o < 3) (hs : S2048x3.Slices ![0, o] S2048x1)
    (r : Fin 2048) (s : Fin 1024) :
    broadcastTo S2048x1024
        (extractStridedSlice S2048x1 ![0, o] (shapeCast S2048x3 v8 shapeCasts_S1x2048x3_S2048x3) hs)
        broadcasts_S2048x1_S2048x1024 (ix2 r s)
      = v8 (ix3 (0 : Fin 1) r (⟨o, ho⟩ : Fin 3)) := by
  refine (broadcastTo_a1_ab_apply _ _ r s).trans ?_
  refine (slice2_axis1_apply o _ hs r (0 : Fin 1) (⟨o, ho⟩ : Fin 3) rfl).trans ?_
  exact shapeCast_1ab_ab_apply v8 _ r _

/-- Coordinate `o` of the second block's columns, spread over the tile, reads at `(r, s)` the block at `(0, o, s)`. -/
theorem colCoord_apply (v10 : Vec Ideal S1x3x1024 .f32) (o : ℕ) (ho : o < 3) (hs : S3x1024.Slices ![o, 0] S1x1024)
    (r : Fin 2048) (s : Fin 1024) :
    broadcastTo S2048x1024
        (extractStridedSlice S1x1024 ![o, 0] (shapeCast S3x1024 v10 shapeCasts_S1x3x1024_S3x1024) hs)
        broadcasts_S1x1024_S2048x1024 (ix2 r s)
      = v10 (ix3 (0 : Fin 1) (⟨o, ho⟩ : Fin 3) s) := by
  refine (broadcastTo_1b_ab_apply _ _ r s).trans ?_
  refine (slice2_axis0_apply o _ hs (0 : Fin 1) s (⟨o, ho⟩ : Fin 3) rfl).trans ?_
  exact shapeCast_1ab_ab_apply v10 _ _ s

set_option maxRecDepth 16384 in
/-- The tile of squared distances at `(r, s)`. -/
theorem pay4_apply (v8 : Vec Ideal S1x2048x3 .f32) (v10 : Vec Ideal S1x3x1024 .f32) (r : Fin 2048) (s : Fin 1024) :
    k0_pay4 (F := Ideal) v8 v10 (ix2 r s)
      = ((v8 (ix3 (0 : Fin 1) r (0 : Fin 3)) - v10 (ix3 (0 : Fin 1) (0 : Fin 3) s))
            * (v8 (ix3 (0 : Fin 1) r (0 : Fin 3)) - v10 (ix3 (0 : Fin 1) (0 : Fin 3) s))
          + (v8 (ix3 (0 : Fin 1) r (1 : Fin 3)) - v10 (ix3 (0 : Fin 1) (1 : Fin 3) s))
            * (v8 (ix3 (0 : Fin 1) r (1 : Fin 3)) - v10 (ix3 (0 : Fin 1) (1 : Fin 3) s)))
          + (v8 (ix3 (0 : Fin 1) r (2 : Fin 3)) - v10 (ix3 (0 : Fin 1) (2 : Fin 3) s))
            * (v8 (ix3 (0 : Fin 1) r (2 : Fin 3)) - v10 (ix3 (0 : Fin 1) (2 : Fin 3) s)) := by
  have a0 := rowCoord_apply v8 0 (by omega) slices_S2048x3_o0_0_S2048x1 r s
  have a1 := rowCoord_apply v8 1 (by omega) slices_S2048x3_o0_1_S2048x1 r s
  have a2 := rowCoord_apply v8 2 (by omega) slices_S2048x3_o0_2_S2048x1 r s
  have b0 := colCoord_apply v10 0 (by omega) slices_S3x1024_o0_0_S1x1024 r s
  have b1 := colCoord_apply v10 1 (by omega) slices_S3x1024_o1_0_S1x1024 r s
  have b2 := colCoord_apply v10 2 (by omega) slices_S3x1024_o2_0_S1x1024 r s
  unfold k0_pay4
  simp only [addf_apply, mulf_apply, subf_apply]
  rw [a0, a1, a2, b0, b1, b2]
  rfl

/-! ## The row block update -/

/-- The row block update at `r`: the old entry `min` the infimum of row `r` of the tile. -/
theorem pay5_apply (v8 : Vec Ideal S1x2048x3 .f32) (v10 : Vec Ideal S1x3x1024 .f32) (v36 : Vec Ideal S1x1x2048 .f32)
    (r : Fin 2048) :
    k0_pay5 (F := Ideal) v8 v10 v36 (ix3 (0 : Fin 1) (0 : Fin 1) r)
      = min (v36 (ix3 (0 : Fin 1) (0 : Fin 1) r)) (⨅ s : Fin 1024, k0_pay4 (F := Ideal) v8 v10 (ix2 r s)) := by
  unfold k0_pay5
  simp only [minimumf_apply, shapeCast_self]
  refine congrArg (min _) ?_
  refine (shapeCast_ab_1ab_apply _ _ (0 : Fin 1) (0 : Fin 1) r).trans ?_
  refine (transpose_ix2_apply _ _ (0 : Fin 1) r).trans ?_
  refine (shapeCast_a_a1_apply _ _ r (0 : Fin 1)).trans ?_
  exact rowMin_apply _ _ _ _ r

/-! ## The column slice update -/

/-- The column slice update at `s`: the old entry `min` the infimum of column `s` of the tile. -/
theorem pay1_apply (v31 : FVec Ideal S2048x1024 .f32) (v45 : Vec Ideal S1x1x1024 .f32) (s : Fin 1024) :
    k0_pay1 (F := Ideal) v31 v45 (ix3 (0 : Fin 1) (0 : Fin 1) s)
      = min (v45 (ix3 (0 : Fin 1) (0 : Fin 1) s)) (⨅ r : Fin 2048, v31 (ix2 r s)) := by
  unfold k0_pay1
  simp only [shapeCast_shapeCast]
  refine (shapeCast_a_11a_apply _ _ (0 : Fin 1) (0 : Fin 1) s).trans ?_
  rw [minimumf_apply, shapeCast_11a_a_apply]
  exact congrArg (min _) (colMin_apply _ _ _ _ s)

/-! ## The reset payloads -/

/-- The column block's reset payload is `+∞` everywhere. -/
theorem pay2_apply (j : S1x1x8192.Idx) : k0_pay2 (F := Ideal) j = ⊤ := ofBits_inf

/-- The row block's reset payload is `+∞` everywhere. -/
theorem pay3_apply (j : S1x1x2048.Idx) : k0_pay3 (F := Ideal) j = ⊤ := ofBits_inf

end Cert.Chamfer.Pay

end
-- ==== Proof.AccumClosed.lean ====
/-
  Closed form of the two running minima.

  After the last column tile of a row of tiles the running row minima are the infima of whole rows of the table; after
  the last point of a batch entry the running column minima are the infima of whole columns.  Both follow from an
  invariant proved by induction on the point number: the running value is the infimum over an initial segment of the
  row (respectively of the column), and a point's tile extends that segment by exactly the tile.
-/
import proofs.«102794_j51427938402462_2_alg».proof.Proof.Accum

noncomputable section

namespace Cert.Chamfer

/-- An infimum over the first `1024 * k` columns, `min`-ed with the infimum over column tile `k`, is the infimum
    over the first `1024 * (k + 1)` columns. -/
theorem iInf_cols_extend (f : Fin 8192 → EReal) (k : ℕ) (hk : k < 8) :
    min (⨅ (p : Fin 8192) (_ : p.val < 1024 * k), f p) (⨅ s : Fin 1024, f (colIx ⟨k, hk⟩ s))
      = ⨅ (p : Fin 8192) (_ : p.val < 1024 * (k + 1)), f p := by
  apply le_antisymm
  · refine le_iInf₂ fun p hp => ?_
    by_cases h : p.val < 1024 * k
    · exact (min_le_left _ _).trans (iInf₂_le p h)
    · have hs : p.val - 1024 * k < 1024 := by omega
      have hp' : colIx ⟨k, hk⟩ ⟨p.val - 1024 * k, hs⟩ = p := by
        apply Fin.ext
        simp only [colIx]
        omega
      refine (min_le_right _ _).trans ((iInf_le _ ⟨p.val - 1024 * k, hs⟩).trans_eq ?_)
      rw [hp']
  · refine le_min (le_iInf₂ fun p hp => iInf₂_le p (by omega)) (le_iInf fun s => iInf₂_le _ ?_)
    have := s.isLt
    simp only [colIx]
    omega

/-- An infimum over the first `2048 * k` rows, `min`-ed with the infimum over row tile `k`, is the infimum over
    the first `2048 * (k + 1)` rows. -/
theorem iInf_rows_extend (g : Fin 8192 → EReal) (k : ℕ) (hk : k < 4) :
    min (⨅ (q : Fin 8192) (_ : q.val < 2048 * k), g q) (⨅ r : Fin 2048, g (rowIx ⟨k, hk⟩ r))
      = ⨅ (q : Fin 8192) (_ : q.val < 2048 * (k + 1)), g q := by
  apply le_antisymm
  · refine le_iInf₂ fun q hq => ?_
    by_cases h : q.val < 2048 * k
    · exact (min_le_left _ _).trans (iInf₂_le q h)
    · have hs : q.val - 2048 * k < 2048 := by omega
      have hq' : rowIx ⟨k, hk⟩ ⟨q.val - 2048 * k, hs⟩ = q := by
        apply Fin.ext
        simp only [rowIx]
        omega
      refine (min_le_right _ _).trans ((iInf_le _ ⟨q.val - 2048 * k, hs⟩).trans_eq ?_)
      rw [hq']
  · refine le_min (le_iInf₂ fun q hq => iInf₂_le q (by omega)) (le_iInf fun r => iInf₂_le _ ?_)
    have := r.isLt
    simp only [rowIx]
    omega

/-- An infimum over an empty initial segment is `+∞`. -/
theorem iInf_lt_zero (f : Fin 8192 → EReal) : (⨅ (p : Fin 8192) (_ : p.val < 0), f p) = ⊤ := by
  simp

variable (D : Fin 2 → Fin 8192 → Fin 8192 → EReal)

/-! ### Rows -/

/-- One point's update of a running row minimum that covers the columns before the point's column tile. -/
theorem row_step (t : Fin 64) (r : Fin 2048) (acc : EReal)
    (hacc : acc = ⨅ (p : Fin 8192) (_ : p.val < 1024 * (t.val % 8)), D (bOf t) (rowIx (qOf t) r) p) :
    min acc (rowChunk D t r)
      = ⨅ (p : Fin 8192) (_ : p.val < 1024 * (t.val % 8 + 1)), D (bOf t) (rowIx (qOf t) r) p := by
  subst hacc
  exact iInf_cols_extend (fun p => D (bOf t) (rowIx (qOf t) r) p) (t.val % 8) (by omega)

/-- The running row minimum after point `n` is the infimum of its row over the column tiles up to the point's. -/
theorem rowAcc_inv (n : ℕ) (h : n < 64) (r : Fin 2048) :
    rowAcc D n h r
      = ⨅ (p : Fin 8192) (_ : p.val < 1024 * (n % 8 + 1)), D (bOf ⟨n, h⟩) (rowIx (qOf ⟨n, h⟩) r) p := by
  induction n with
  | zero =>
    show min ⊤ (rowChunk D ⟨0, h⟩ r) = _
    exact row_step D ⟨0, h⟩ r ⊤ (iInf_lt_zero _).symm
  | succ n ih =>
    by_cases hr : (n + 1) % 8 = 0
    · have e : rowAcc D (n + 1) h r = min ⊤ (rowChunk D ⟨n + 1, h⟩ r) := by
        rw [rowAcc]; exact if_pos hr
      rw [e]
      refine row_step D ⟨n + 1, h⟩ r ⊤ ?_
      show ⊤ = ⨅ (p : Fin 8192) (_ : p.val < 1024 * ((n + 1) % 8)), _
      rw [hr]
      exact (iInf_lt_zero _).symm
    · have e : rowAcc D (n + 1) h r
          = min (rowAcc D n (Nat.lt_of_succ_lt h) r) (rowChunk D ⟨n + 1, h⟩ r) := by
        rw [rowAcc]; exact if_neg hr
      rw [e]
      refine row_step D ⟨n + 1, h⟩ r _ ?_
      have e1 : bOf ⟨n, Nat.lt_of_succ_lt h⟩ = bOf ⟨n + 1, h⟩ := by
        apply Fin.ext; simp only [bOf]; omega
      have e2 : qOf ⟨n, Nat.lt_of_succ_lt h⟩ = qOf ⟨n + 1, h⟩ := by
        apply Fin.ext; simp only [qOf]; omega
      have e3 : n % 8 + 1 = (n + 1) % 8 := by omega
      rw [ih (Nat.lt_of_succ_lt h), e1, e2, e3]

/-- After the last column tile of a row of tiles the running row minima are the minima of whole rows. -/
theorem rowAcc_last (t : Fin 64) (h : t.val % 8 = 7) (r : Fin 2048) :
    rowAcc D t.val t.isLt r = ⨅ p : Fin 8192, D (bOf t) (rowIx (qOf t) r) p := by
  rw [rowAcc_inv D t.val t.isLt r]
  refine iInf_congr fun p => ?_
  have := p.isLt
  exact iInf_pos (by omega)

/-! ### Columns -/

/-- One point's update of a running column minimum: inside the point's column tile the covered rows grow by the
    point's row tile, outside they stay. -/
theorem col_step (t : Fin 64) (old : Fin 8192 → EReal) (p : Fin 8192) (B B' : ℕ)
    (hold : old p = ⨅ (q : Fin 8192) (_ : q.val < B), D (bOf t) q p)
    (hin : p.val / 1024 = t.val % 8 → B = 2048 * (t.val / 8 % 4) ∧ B' = 2048 * (t.val / 8 % 4 + 1))
    (hout : p.val / 1024 ≠ t.val % 8 → B' = B) :
    colStep D t old p = ⨅ (q : Fin 8192) (_ : q.val < B'), D (bOf t) q p := by
  unfold colStep
  by_cases hc : 1024 * (pOf t).val ≤ p.val ∧ p.val < 1024 * (pOf t).val + 1024
  · rw [dif_pos hc]
    have hc' : 1024 * (t.val % 8) ≤ p.val ∧ p.val < 1024 * (t.val % 8) + 1024 := hc
    obtain ⟨hB, hB'⟩ := hin (by omega)
    have hp : colIx (pOf t) ⟨p.val - 1024 * (pOf t).val, by omega⟩ = p := by
      apply Fin.ext
      simp only [colIx]
      omega
    rw [hold, hB, hB']
    unfold colChunk
    rw [hp]
    exact iInf_rows_extend (fun q => D (bOf t) q p) (t.val / 8 % 4) (by omega)
  · rw [dif_neg hc]
    have hc' : ¬ (1024 * (t.val % 8) ≤ p.val ∧ p.val < 1024 * (t.val % 8) + 1024) := hc
    rw [hout (by omega), hold]

/-- The running column minimum after point `n` is the infimum of its column over the row tiles before the point's,
    and over the point's row tile too once the column's tile has been visited. -/
theorem colAcc_inv (n : ℕ) (h : n < 64) (p : Fin 8192) :
    colAcc D n h p
      = ⨅ (q : Fin 8192) (_ : q.val < 2048 * (n / 8 % 4) + (if p.val / 1024 ≤ n % 8 then 2048 else 0)),
          D (bOf ⟨n, h⟩) q p := by
  induction n with
  | zero =>
    show colStep D ⟨0, h⟩ (fun _ => ⊤) p = _
    refine col_step D ⟨0, h⟩ _ p 0 _ (iInf_lt_zero _).symm ?_ ?_
    · dsimp only
      intro hp
      rw [if_pos (by omega)]
      omega
    · dsimp only
      intro hp
      rw [if_neg (by omega)]
  | succ n ih =>
    by_cases hr : (n + 1) % 32 = 0
    · have e : colAcc D (n + 1) h = colStep D ⟨n + 1, h⟩ (fun _ => ⊤) := by
        rw [colAcc]; exact if_pos hr
      rw [e]
      refine col_step D ⟨n + 1, h⟩ _ p 0 _ (iInf_lt_zero _).symm ?_ ?_
      · dsimp only
        intro hp
        rw [if_pos (by omega)]
        omega
      · dsimp only
        intro hp
        rw [if_neg (by omega)]
        omega
    · have e : colAcc D (n + 1) h = colStep D ⟨n + 1, h⟩ (colAcc D n (Nat.lt_of_succ_lt h)) := by
        rw [colAcc]; exact if_neg hr
      have e1 : bOf ⟨n, Nat.lt_of_succ_lt h⟩ = bOf ⟨n + 1, h⟩ := by
        apply Fin.ext; simp only [bOf]; omega
      have hold := ih (Nat.lt_of_succ_lt h)
      rw [e1] at hold
      rw [e]
      have := p.isLt
      refine col_step D ⟨n + 1, h⟩ _ p _ _ hold ?_ ?_
      · dsimp only
        intro hp
        split_ifs <;> omega
      · dsimp only
        intro hp
        split_ifs <;> omega

/-- After the last point of a batch entry the running column minima are the minima of whole columns. -/
theorem colAcc_last (t : Fin 64) (h : t.val % 32 = 31) (p : Fin 8192) :
    colAcc D t.val t.isLt p = ⨅ q : Fin 8192, D (bOf t) q p := by
  rw [colAcc_inv D t.val t.isLt p]
  have := p.isLt
  rw [if_pos (by omega)]
  refine iInf_congr fun q => ?_
  have := q.isLt
  exact iInf_pos (by omega)

end Cert.Chamfer

end
-- ==== Proof.ValueIdeal.lean ====
/-
  The running blocks of the kernel ARE the running minima of the squared-distance table.

  `D b q p` is the squared distance between point `q` of the second argument (the predicted cloud) and point `p` of the
  first (the ground-truth cloud) in batch entry `b`.  The tile of distances the body computes at grid point `t` from its
  two input blocks is `D` restricted to the tile's rows and columns (`tile_apply`), so the tile's row and column minima
  are `rowChunk D t` and `colChunk D t`.  By induction on the point, the row block after point `n` is `rowAcc D n` and
  the column block is `colAcc D n`; at the last column tile of a row of tiles the row block is therefore the minimum
  over ALL ground-truth points, and at the last point of a batch entry the column block is the minimum over ALL
  predicted points.
-/
import proofs.«102794_j51427938402462_2_alg».proof.Proof.OutsIdeal
import proofs.«102794_j51427938402462_2_alg».proof.Proof.PayIdeal
import proofs.«102794_j51427938402462_2_alg».proof.Proof.AccumClosed
import proofs.«102794_j51427938402462_2_alg».proof.Proof.Spec

set_option maxRecDepth 16384

noncomputable section

namespace Cert.Chamfer.KVal

open Cert.KernelIdeal Cert.KernelIdeal.Gen Cert.KernelIdeal.Body
open Idealize.ShloMosaic Idealize.ShloMosaic.TcCoe Idealize.ShloMosaic.ValueIdx Idealize.SL.Sem
open Cert.Chamfer Cert.Chamfer.Blocks Cert.Chamfer.Pay Cert.Chamfer.Outs

variable (m : (ℓ : Loc nD τ sig) → Buf (Elt Ideal) ℓ) (c : Dev nD)

/-- The squared-distance table of the two argument clouds on core `c`. -/
def D : Fin 2 → Fin 8192 → Fin 8192 → EReal :=
  sqDist (m ((c : Thread nD τ).loc main_arg1)) (m ((c : Thread nD τ).loc main_arg0))

/-- The tile of distances the body computes at point `t` is `D` on the tile. -/
theorem tile_apply (t : Fin cfg0.N) (r : Fin 2048) (s : Fin 1024) :
    k0_pay4 (F := Ideal) (iblk m c 0 t) (iblk m c 1 t) (ix2 r s)
      = D m c (bOf (tOf t)) (rowIx (qOf (tOf t)) r) (colIx (pOf (tOf t)) s) := by
  rw [pay4_apply]
  simp only [iblk0_apply, iblk1_apply]
  rfl

theorem rowChunk_eq (t : Fin cfg0.N) (r : Fin 2048) :
    (⨅ s : Fin 1024, k0_pay4 (F := Ideal) (iblk m c 0 t) (iblk m c 1 t) (ix2 r s)) = rowChunk (D m c) (tOf t) r :=
  iInf_congr fun s => tile_apply m c t r s

theorem colChunk_eq (t : Fin cfg0.N) (s : Fin 1024) :
    (⨅ r : Fin 2048, k0_pay4 (F := Ideal) (iblk m c 0 t) (iblk m c 1 t) (ix2 r s)) = colChunk (D m c) (tOf t) s :=
  iInf_congr fun r => tile_apply m c t r s

/-- The row block's update at a point: the earlier entry `min`-ed with the tile's row minimum. -/
theorem rows_step (t : Fin cfg0.N) (xo2 : Vec Ideal S1x1x2048 .f32) (r : Fin 2048) :
    k0_pay5 (F := Ideal) (iblk m c 0 t) (iblk m c 1 t) xo2 (ix3 (0 : Fin 1) (0 : Fin 1) r)
      = min (xo2 (ix3 (0 : Fin 1) (0 : Fin 1) r)) (rowChunk (D m c) (tOf t) r) := by
  rw [pay5_apply, rowChunk_eq]

/-- The column block's update at a point, from its reading inside and outside the point's slice: `colStep`. -/
theorem cols_step (t : Fin cfg0.N) (X out : S1x1x8192.Idx → EReal)
    (hin : ∃ v45 : Vec Ideal S1x1x1024 .f32, (∀ s : Fin 1024, v45 (ix3 (0 : Fin 1) (0 : Fin 1) s) = X (ix3 (0 : Fin 1) (0 : Fin 1) (colIx (pOf (tOf t)) s))) ∧
      ∀ s : Fin 1024, out (ix3 (0 : Fin 1) (0 : Fin 1) (colIx (pOf (tOf t)) s))
        = k0_pay1 (F := Ideal) (k0_pay4 (F := Ideal) (iblk m c 0 t) (iblk m c 1 t)) v45 (ix3 (0 : Fin 1) (0 : Fin 1) s))
    (hout : ∀ p : Fin 8192, (p.val < 1024 * (t.val % 8) ∨ 1024 * (t.val % 8) + 1024 ≤ p.val) → out (ix3 (0 : Fin 1) (0 : Fin 1) p) = X (ix3 (0 : Fin 1) (0 : Fin 1) p))
    (p : Fin 8192) :
    out (ix3 (0 : Fin 1) (0 : Fin 1) p) = colStep (D m c) (tOf t) (fun p' => X (ix3 (0 : Fin 1) (0 : Fin 1) p')) p := by
  obtain ⟨v45, hv, hin'⟩ := hin
  have hpv : (pOf (tOf t)).val = t.val % 8 := rfl
  unfold colStep
  by_cases h : 1024 * (pOf (tOf t)).val ≤ p.val ∧ p.val < 1024 * (pOf (tOf t)).val + 1024
  · rw [dif_pos h]
    have hp : p = colIx (pOf (tOf t)) ⟨p.val - 1024 * (pOf (tOf t)).val, by omega⟩ := Fin.ext (by show p.val = 1024 * (pOf (tOf t)).val + (p.val - 1024 * (pOf (tOf t)).val); omega)
    have e := hin' ⟨p.val - 1024 * (pOf (tOf t)).val, by omega⟩
    rw [← hp] at e
    rw [e, pay1_apply, hv, ← hp, colChunk_eq]
  · rw [dif_neg h]
    exact hout p (by rw [hpv] at h; omega)

/-! ## Each case at a point, in the accumulation model's terms -/

theorem rowsA (t : Fin cfg0.N) (hc0 : cond0_0 (grid0.coords t)) (hc1 : cond0_1 (grid0.coords t)) (r : Fin 2048) :
    out0_A_2 c (grid0.coords t) (ms0_0 t) (hs0_0 t) (ms0_1 t) (hs0_1 t) (ms0_2 t) (hs0_2 t) (ms0_3 t) (hs0_3 t) hc0 hc1 (iblk m c 0 t) (iblk m c 1 t) (ix3 (0 : Fin 1) (0 : Fin 1) r) = min ⊤ (rowChunk (D m c) (tOf t) r) :=
  (congrFun (row_A c (grid0.coords t) (ms0_0 t) (hs0_0 t) (ms0_1 t) (hs0_1 t) (ms0_2 t) (hs0_2 t) (ms0_3 t) (hs0_3 t) hc0 hc1 (iblk m c 0 t) (iblk m c 1 t)) (ix3 (0 : Fin 1) (0 : Fin 1) r)).trans
    ((rows_step m c t (k0_pay3 (F := Ideal)) r).trans (congrArg (fun x => min x (rowChunk (D m c) (tOf t) r)) (pay3_apply (ix3 (0 : Fin 1) (0 : Fin 1) r))))

theorem rowsC (t : Fin cfg0.N) (hc0 : ¬cond0_0 (grid0.coords t)) (hc1 : cond0_1 (grid0.coords t)) (xo3 : Vec Ideal S1x1x8192 .f32) (r : Fin 2048) :
    out0_C_2 c (grid0.coords t) (ms0_0 t) (hs0_0 t) (ms0_1 t) (hs0_1 t) (ms0_2 t) (hs0_2 t) (ms0_3 t) (hs0_3 t) hc0 hc1 (iblk m c 0 t) (iblk m c 1 t) xo3 (ix3 (0 : Fin 1) (0 : Fin 1) r) = min ⊤ (rowChunk (D m c) (tOf t) r) :=
  (congrFun (row_C c (grid0.coords t) (ms0_0 t) (hs0_0 t) (ms0_1 t) (hs0_1 t) (ms0_2 t) (hs0_2 t) (ms0_3 t) (hs0_3 t) hc0 hc1 (iblk m c 0 t) (iblk m c 1 t) xo3) (ix3 (0 : Fin 1) (0 : Fin 1) r)).trans
    ((rows_step m c t (k0_pay3 (F := Ideal)) r).trans (congrArg (fun x => min x (rowChunk (D m c) (tOf t) r)) (pay3_apply (ix3 (0 : Fin 1) (0 : Fin 1) r))))

theorem rowsB (t : Fin cfg0.N) (hc0 : ¬cond0_0 (grid0.coords t)) (hc1 : ¬cond0_1 (grid0.coords t)) (xo2 : Vec Ideal S1x1x2048 .f32) (xo3 : Vec Ideal S1x1x8192 .f32) (r : Fin 2048) :
    out0_B_2 c (grid0.coords t) (ms0_0 t) (hs0_0 t) (ms0_1 t) (hs0_1 t) (ms0_2 t) (hs0_2 t) (ms0_3 t) (hs0_3 t) hc0 hc1 (iblk m c 0 t) (iblk m c 1 t) xo2 xo3 (ix3 (0 : Fin 1) (0 : Fin 1) r) = min (xo2 (ix3 (0 : Fin 1) (0 : Fin 1) r)) (rowChunk (D m c) (tOf t) r) :=
  (congrFun (row_B c (grid0.coords t) (ms0_0 t) (hs0_0 t) (ms0_1 t) (hs0_1 t) (ms0_2 t) (hs0_2 t) (ms0_3 t) (hs0_3 t) hc0 hc1 (iblk m c 0 t) (iblk m c 1 t) xo2 xo3) (ix3 (0 : Fin 1) (0 : Fin 1) r)).trans (rows_step m c t xo2 r)

theorem colsA (t : Fin cfg0.N) (hc0 : cond0_0 (grid0.coords t)) (hc1 : cond0_1 (grid0.coords t)) (p : Fin 8192) :
    out0_A_3 c (grid0.coords t) (ms0_0 t) (hs0_0 t) (ms0_1 t) (hs0_1 t) (ms0_2 t) (hs0_2 t) (ms0_3 t) (hs0_3 t) hc0 hc1 (iblk m c 0 t) (iblk m c 1 t) (ix3 (0 : Fin 1) (0 : Fin 1) p) = colStep (D m c) (tOf t) (fun _ => ⊤) p :=
  (cols_step m c t (k0_pay2 (F := Ideal)) (out0_A_3 c (grid0.coords t) (ms0_0 t) (hs0_0 t) (ms0_1 t) (hs0_1 t) (ms0_2 t) (hs0_2 t) (ms0_3 t) (hs0_3 t) hc0 hc1 (iblk m c 0 t) (iblk m c 1 t))
    (col_A_in c t (ms0_0 t) (hs0_0 t) (ms0_1 t) (hs0_1 t) (ms0_2 t) (hs0_2 t) (ms0_3 t) (hs0_3 t) hc0 hc1 (iblk m c 0 t) (iblk m c 1 t))
    (fun p hp => col_A_out c t (ms0_0 t) (hs0_0 t) (ms0_1 t) (hs0_1 t) (ms0_2 t) (hs0_2 t) (ms0_3 t) (hs0_3 t) hc0 hc1 (iblk m c 0 t) (iblk m c 1 t) p hp) p).trans
    (congrArg (fun X => colStep (D m c) (tOf t) X p) (funext fun p' => pay2_apply (ix3 (0 : Fin 1) (0 : Fin 1) p')))

theorem colsC (t : Fin cfg0.N) (hc0 : ¬cond0_0 (grid0.coords t)) (hc1 : cond0_1 (grid0.coords t)) (xo3 : Vec Ideal S1x1x8192 .f32) (p : Fin 8192) :
    out0_C_3 c (grid0.coords t) (ms0_0 t) (hs0_0 t) (ms0_1 t) (hs0_1 t) (ms0_2 t) (hs0_2 t) (ms0_3 t) (hs0_3 t) hc0 hc1 (iblk m c 0 t) (iblk m c 1 t) xo3 (ix3 (0 : Fin 1) (0 : Fin 1) p) = colStep (D m c) (tOf t) (fun p' => xo3 (ix3 (0 : Fin 1) (0 : Fin 1) p')) p :=
  cols_step m c t xo3 (out0_C_3 c (grid0.coords t) (ms0_0 t) (hs0_0 t) (ms0_1 t) (hs0_1 t) (ms0_2 t) (hs0_2 t) (ms0_3 t) (hs0_3 t) hc0 hc1 (iblk m c 0 t) (iblk m c 1 t) xo3)
    (col_C_in c t (ms0_0 t) (hs0_0 t) (ms0_1 t) (hs0_1 t) (ms0_2 t) (hs0_2 t) (ms0_3 t) (hs0_3 t) hc0 hc1 (iblk m c 0 t) (iblk m c 1 t) xo3)
    (fun p hp => col_C_out c t (ms0_0 t) (hs0_0 t) (ms0_1 t) (hs0_1 t) (ms0_2 t) (hs0_2 t) (ms0_3 t) (hs0_3 t) hc0 hc1 (iblk m c 0 t) (iblk m c 1 t) xo3 p hp) p

theorem colsB (t : Fin cfg0.N) (hc0 : ¬cond0_0 (grid0.coords t)) (hc1 : ¬cond0_1 (grid0.coords t)) (xo2 : Vec Ideal S1x1x2048 .f32) (xo3 : Vec Ideal S1x1x8192 .f32) (p : Fin 8192) :
    out0_B_3 c (grid0.coords t) (ms0_0 t) (hs0_0 t) (ms0_1 t) (hs0_1 t) (ms0_2 t) (hs0_2 t) (ms0_3 t) (hs0_3 t) hc0 hc1 (iblk m c 0 t) (iblk m c 1 t) xo2 xo3 (ix3 (0 : Fin 1) (0 : Fin 1) p) = colStep (D m c) (tOf t) (fun p' => xo3 (ix3 (0 : Fin 1) (0 : Fin 1) p')) p :=
  cols_step m c t xo3 (out0_B_3 c (grid0.coords t) (ms0_0 t) (hs0_0 t) (ms0_1 t) (hs0_1 t) (ms0_2 t) (hs0_2 t) (ms0_3 t) (hs0_3 t) hc0 hc1 (iblk m c 0 t) (iblk m c 1 t) xo2 xo3)
    (col_B_in c t (ms0_0 t) (hs0_0 t) (ms0_1 t) (hs0_1 t) (ms0_2 t) (hs0_2 t) (ms0_3 t) (hs0_3 t) hc0 hc1 (iblk m c 0 t) (iblk m c 1 t) xo2 xo3)
    (fun p hp => col_B_out c t (ms0_0 t) (hs0_0 t) (ms0_1 t) (hs0_1 t) (ms0_2 t) (hs0_2 t) (ms0_3 t) (hs0_3 t) hc0 hc1 (iblk m c 0 t) (iblk m c 1 t) xo2 xo3 p hp) p

/-! ## The recursion's case equations, component by component -/

attribute [local irreducible] out0_A_2 out0_A_3 out0_C_2 out0_C_3 out0_B_2 out0_B_3

theorem outs_A_fst (t : Fin cfg0.N) (h0 : t.val % 32 = 0) (h1 : t.val % 8 = 0) :
    (outsAt0 m c t.val t.isLt).1 = out0_A_2 c (grid0.coords t) (ms0_0 t) (hs0_0 t) (ms0_1 t) (hs0_1 t) (ms0_2 t) (hs0_2 t) (ms0_3 t) (hs0_3 t) ((hcond0_0 t).mpr h0) ((hcond0_1 t).mpr h1) (iblk m c 0 t) (iblk m c 1 t) :=
  congrArg Prod.fst (outsAt0_A m c t h0 h1)
theorem outs_A_snd (t : Fin cfg0.N) (h0 : t.val % 32 = 0) (h1 : t.val % 8 = 0) :
    (outsAt0 m c t.val t.isLt).2 = out0_A_3 c (grid0.coords t) (ms0_0 t) (hs0_0 t) (ms0_1 t) (hs0_1 t) (ms0_2 t) (hs0_2 t) (ms0_3 t) (hs0_3 t) ((hcond0_0 t).mpr h0) ((hcond0_1 t).mpr h1) (iblk m c 0 t) (iblk m c 1 t) :=
  congrArg Prod.snd (outsAt0_A m c t h0 h1)
theorem outs_C_fst (t : Fin cfg0.N) (h0 : ¬t.val % 32 = 0) (h1 : t.val % 8 = 0) :
    (outsAt0 m c t.val t.isLt).1 = out0_C_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2 :=
  congrArg Prod.fst (outsAt0_C m c t h0 h1)
theorem outs_C_snd (t : Fin cfg0.N) (h0 : ¬t.val % 32 = 0) (h1 : t.val % 8 = 0) :
    (outsAt0 m c t.val t.isLt).2 = out0_C_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2 :=
  congrArg Prod.snd (outsAt0_C m c t h0 h1)
theorem outs_B_fst (t : Fin cfg0.N) (h0 : ¬t.val % 32 = 0) (h1 : ¬t.val % 8 = 0) :
    (outsAt0 m c t.val t.isLt).1 = out0_B_2 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 :=
  congrArg Prod.fst (outsAt0_B m c t h0 h1)
theorem outs_B_snd (t : Fin cfg0.N) (h0 : ¬t.val % 32 = 0) (h1 : ¬t.val % 8 = 0) :
    (outsAt0 m c t.val t.isLt).2 = out0_B_3 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 :=
  congrArg Prod.snd (outsAt0_B m c t h0 h1)

/-- One step of the row block, whatever the case: reset to the tile's row minima at a first column tile, else continued. -/
theorem row_next (t : Fin cfg0.N) (r : Fin 2048) :
    (outsAt0 m c t.val t.isLt).1 (ix3 (0 : Fin 1) (0 : Fin 1) r)
      = if t.val % 8 = 0 then min ⊤ (rowChunk (D m c) (tOf t) r)
        else min ((outsAt0 m c (t.val - 1) (Nat.lt_of_le_of_lt (Nat.sub_le _ _) t.isLt)).1 (ix3 (0 : Fin 1) (0 : Fin 1) r)) (rowChunk (D m c) (tOf t) r) := by
  by_cases h1 : t.val % 8 = 0
  · rw [if_pos h1]
    by_cases h0 : t.val % 32 = 0
    · exact (congrFun (outs_A_fst m c t h0 h1) (ix3 (0 : Fin 1) (0 : Fin 1) r)).trans (rowsA m c t ((hcond0_0 t).mpr h0) ((hcond0_1 t).mpr h1) r)
    · exact (congrFun (outs_C_fst m c t h0 h1) (ix3 (0 : Fin 1) (0 : Fin 1) r)).trans (rowsC m c t (fun h => h0 ((hcond0_0 t).mp h)) ((hcond0_1 t).mpr h1) (outsAt0 m c (t.val - 1) (Nat.lt_of_le_of_lt (Nat.sub_le _ _) t.isLt)).2 r)
  · rw [if_neg h1]
    have h0 : ¬t.val % 32 = 0 := by omega
    exact (congrFun (outs_B_fst m c t h0 h1) (ix3 (0 : Fin 1) (0 : Fin 1) r)).trans (rowsB m c t (fun h => h0 ((hcond0_0 t).mp h)) (fun h => h1 ((hcond0_1 t).mp h)) (outsAt0 m c (t.val - 1) (Nat.lt_of_le_of_lt (Nat.sub_le _ _) t.isLt)).1 (outsAt0 m c (t.val - 1) (Nat.lt_of_le_of_lt (Nat.sub_le _ _) t.isLt)).2 r)

/-- One step of the column block, whatever the case: from `+∞` at the first point of a batch entry, else continued. -/
theorem col_next (t : Fin cfg0.N) (p : Fin 8192) :
    (outsAt0 m c t.val t.isLt).2 (ix3 (0 : Fin 1) (0 : Fin 1) p)
      = if t.val % 32 = 0 then colStep (D m c) (tOf t) (fun _ => ⊤) p
        else colStep (D m c) (tOf t) (fun p' => (outsAt0 m c (t.val - 1) (Nat.lt_of_le_of_lt (Nat.sub_le _ _) t.isLt)).2 (ix3 (0 : Fin 1) (0 : Fin 1) p')) p := by
  by_cases h0 : t.val % 32 = 0
  · rw [if_pos h0]
    have h1 : t.val % 8 = 0 := by omega
    exact (congrFun (outs_A_snd m c t h0 h1) (ix3 (0 : Fin 1) (0 : Fin 1) p)).trans (colsA m c t ((hcond0_0 t).mpr h0) ((hcond0_1 t).mpr h1) p)
  · rw [if_neg h0]
    by_cases h1 : t.val % 8 = 0
    · exact (congrFun (outs_C_snd m c t h0 h1) (ix3 (0 : Fin 1) (0 : Fin 1) p)).trans (colsC m c t (fun h => h0 ((hcond0_0 t).mp h)) ((hcond0_1 t).mpr h1) (outsAt0 m c (t.val - 1) (Nat.lt_of_le_of_lt (Nat.sub_le _ _) t.isLt)).2 p)
    · exact (congrFun (outs_B_snd m c t h0 h1) (ix3 (0 : Fin 1) (0 : Fin 1) p)).trans (colsB m c t (fun h => h0 ((hcond0_0 t).mp h)) (fun h => h1 ((hcond0_1 t).mp h)) (outsAt0 m c (t.val - 1) (Nat.lt_of_le_of_lt (Nat.sub_le _ _) t.isLt)).1 (outsAt0 m c (t.val - 1) (Nat.lt_of_le_of_lt (Nat.sub_le _ _) t.isLt)).2 p)

set_option maxHeartbeats 1000000 in
/-- By induction on the point: the two running blocks are the two running minima of `D`. -/
theorem acc_eq : ∀ (n : ℕ) (h : n < cfg0.N),
    (∀ r : Fin 2048, (outsAt0 m c n h).1 (ix3 (0 : Fin 1) (0 : Fin 1) r) = rowAcc (D m c) n (N64 ▸ h) r)
    ∧ (∀ p : Fin 8192, (outsAt0 m c n h).2 (ix3 (0 : Fin 1) (0 : Fin 1) p) = colAcc (D m c) n (N64 ▸ h) p) := by
  intro n
  induction n with
  | zero =>
    intro h
    refine ⟨fun r => ?_, fun p => ?_⟩
    · refine (row_next m c ⟨0, h⟩ r).trans ?_
      rw [if_pos (show (⟨0, h⟩ : Fin cfg0.N).val % 8 = 0 from rfl)]
      simp only [rowAcc]
      rfl
    · refine (col_next m c ⟨0, h⟩ p).trans ?_
      rw [if_pos (show (⟨0, h⟩ : Fin cfg0.N).val % 32 = 0 from rfl)]
      simp only [colAcc]
      rfl
  | succ n ih =>
    intro h
    obtain ⟨ihr, ihc⟩ := ih (Nat.lt_of_succ_lt h)
    refine ⟨fun r => ?_, fun p => ?_⟩
    · refine (row_next m c ⟨n + 1, h⟩ r).trans ?_
      simp only [rowAcc]
      by_cases h1 : (n + 1) % 8 = 0
      · rw [if_pos h1, if_pos h1]; rfl
      · rw [if_neg h1, if_neg h1]
        exact congrArg (fun x => min x _) (ihr r)
    · refine (col_next m c ⟨n + 1, h⟩ p).trans ?_
      simp only [colAcc]
      by_cases h0 : (n + 1) % 32 = 0
      · rw [if_pos h0, if_pos h0]; rfl
      · rw [if_neg h0, if_neg h0]
        exact congrArg (fun X => colStep (D m c) _ X p) (funext fun p' => ihc p')

/-- At the last column tile of a row of tiles the row block holds, for each of its rows, the minimum over all columns. -/
theorem after2_last (t : Fin cfg0.N) (ht : t.val % 8 = 7) (r : Fin 2048) :
    (dats m 0 c).after 2 t (ix3 (0 : Fin 1) (0 : Fin 1) r)
      = nearestGt (m ((c : Thread nD τ).loc main_arg1)) (m ((c : Thread nD τ).loc main_arg0)) (ix2 (bOf (tOf t)) (rowIx (qOf (tOf t)) r)) := by
  rw [after0_2, (acc_eq m c t.val t.isLt).1 r]
  exact rowAcc_last (D m c) (tOf t) ht r

/-- At the last point of a batch entry the column block holds, for each column, the minimum over all rows. -/
theorem after3_last (t : Fin cfg0.N) (ht : t.val % 32 = 31) (p : Fin 8192) :
    (dats m 0 c).after 3 t (ix3 (0 : Fin 1) (0 : Fin 1) p)
      = nearestPred (m ((c : Thread nD τ).loc main_arg1)) (m ((c : Thread nD τ).loc main_arg0)) (ix2 (bOf (tOf t)) p) := by
  rw [after0_3, (acc_eq m c t.val t.isLt).2 p]
  exact colAcc_last (D m c) (tOf t) ht p

end Cert.Chamfer.KVal

end
-- ==== Proof.lean ====
/-
  The proof of `Cert.Claim`: a tiled kernel that computes the two one-sided nearest-neighbour tables of a chamfer
  distance tile by tile, against a reference program that builds the whole table of squared distances.

  THE MATHEMATICS.  Two clouds of 8192 points of ℝ³ in each of two batch entries.  The kernel walks a grid of 2·4·8 points;
  at a point it forms one 2048 × 1024 tile of squared distances `(x₀-y₀)² + (x₁-y₁)² + (x₂-y₂)²`, takes the tile's row
  minima and column minima, and folds them with `min` into two running blocks that start at `+∞`: a block of 2048 row
  minima, restarted with every row of tiles and written back after its last tile, and a block of 8192 column minima,
  restarted with every batch entry, updated on the tile's 1024 columns only and written back after the batch entry's
  last tile.  A minimum of minima over the tiles of a partition is the minimum over the whole: the arrays written back
  hold, for every predicted point, the squared distance to its nearest ground-truth point, and for every ground-truth
  point the squared distance to its nearest predicted point (Proof/Accum.lean, AccumClosed.lean for the pure statement;
  Proof/ValueIdeal.lean and ArraysIdeal.lean for the kernel).
  The reference computes the same squared distance as `|x|² + |y|² - 2·x·y`; on FINITE reals the two are equal, and the
  finiteness of the inputs is exactly the certificate's precondition (it fails at infinities, where a difference of
  infinities is not a sum of squares).  It then takes the two minima over whole axes of the table
  (Proof/RefTables.lean, Proof/Finite.lean).
  Both programs finish with the same host operations on the two tables and the mask — a masked mean and a mean, added —
  which are kept as one unopened function of the tables (Proof/TailIdeal.lean).
  THE FRAMES.  The reference's is its generated run.  The kernel's two (word-level and idealized) are proved from the
  body's three control cases — both running blocks reset, the row block reset, neither reset — with the contents of the
  two running blocks named point by point (Proof/RunsIdeal.lean, FrameIdeal.lean and their word-level twins
  RunsBits.lean, FrameBits.lean: the same statements at any float instance).  The idealization rewrote nothing, so
  `preserves` is trivial.
-/
import proofs.«102794_j51427938402462_2_alg».proof.Defs
import proofs.«102794_j51427938402462_2_alg».proof.Proof.Claims
import proofs.«102794_j51427938402462_2_alg».proof.Proof.ArraysIdeal
import proofs.«102794_j51427938402462_2_alg».proof.Proof.ValueIdeal

noncomputable section

namespace Cert.Proof

/-- The five claims, from the two final arrays of the kernel: the row table is `nearestGt` and the column table is
    `nearestPred` of the two argument clouds (the written-back blocks cover the arrays, and each block at its last
    point holds the minima over the whole other cloud). -/
theorem claim : Cert.Claim :=
  Cert.Proof.Claims.claim_of
    (fun m c => Cert.Chamfer.Arrays.final_rows m c _ (Cert.Chamfer.KVal.after2_last m c))
    (fun m c => Cert.Chamfer.Arrays.final_cols m c _ (Cert.Chamfer.KVal.after3_last m c))

end Cert.Proof

end
